-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x255x76x76 : Shape := ⟨4, ![16, 255, 76, 76]⟩
abbrev S_ : Shape := ⟨0, ![]⟩

class Facts : Prop where
  bcast_S_S16x255x76x76 : S_.BroadcastsInDim S16x255x76x76 (![] : Fin 0 → Fin S16x255x76x76.rank)
  reducesTo_S16x255x76x76_S_d0_1_2_3 : S16x255x76x76.ReducesTo [0, 1, 2, 3] S_
  h_S_ : 0 < S_.numel

variable [Facts]

def fn {F : FTy → Type} [FloatOps F] (main_arg0 : FVec F S16x255x76x76 .f32) (main_arg1 : IVec S_ 32) : IVec S_ 1 :=
  let main_v0 : FVec F S16x255x76x76 .f32 := Host.absf main_arg0
  let main_cst : FVec F S_ .f32 := constant S_ .f32 0x7F800000#32
  let main_v1 : FVec F S16x255x76x76 .f32 := broadcastInDim S16x255x76x76 ![] bcast_S_S16x255x76x76 main_cst
  let main_v2 : IVec S16x255x76x76 1 := cmpf .olt main_v0 main_v1
  let main_c : IVec S_ 1 := constantI S_ 1 1#1
  let main_v3 : IVec S_ 1 := (fun x v => Host.reduce IntOp.andi x v reducesTo_S16x255x76x76_S_d0_1_2_3 h_S_) main_v2 main_c
  let main_c_0 : IVec S_ 32 := constantI S_ 32 76#32
  let main_v4 : IVec S_ 32 := Host.divsi main_arg1 main_c_0
  let main_c_1 : IVec S_ 32 := constantI S_ 32 76#32
  let main_v5 : IVec S_ 32 := Host.remsi main_arg1 main_c_1
  let main_v6 : IVec S_ 32 := signi main_arg1
  let main_c_2 : IVec S_ 32 := constantI S_ 32 76#32
  let main_v7 : IVec S_ 32 := signi main_c_2
  let main_v8 : IVec S_ 1 := cmpi .ne main_v6 main_v7
  let main_c_3 : IVec S_ 32 := constantI S_ 32 0#32
  let main_v9 : IVec S_ 1 := cmpi .ne main_v5 main_c_3
  let main_v10 : IVec S_ 1 := andi main_v8 main_v9
  let main_c_4 : IVec S_ 32 := constantI S_ 32 1#32
  let main_v11 : IVec S_ 32 := subi main_v4 main_c_4
  let main_v12 : IVec S_ 32 := select main_v10 main_v11 main_v4
  let main_c_5 : IVec S_ 32 := constantI S_ 32 0#32
  let main_v13 : IVec S_ 1 := cmpi .ne main_v12 main_c_5
  let main_v14 : IVec S_ 1 := andi main_v3 main_v13
  main_v14
-- ==== Kernel.lean ====
abbrev S16x255x76x76 : Shape := ⟨4, ![16, 255, 76, 76]⟩
abbrev S_ : Shape := ⟨0, ![]⟩
abbrev S255 : Shape := ⟨1, ![255]⟩
abbrev S76x76x16x255 : Shape := ⟨4, ![76, 76, 16, 255]⟩
abbrev S1x255 : Shape := ⟨2, ![1, 255]⟩
abbrev S4x255 : Shape := ⟨2, ![4, 255]⟩
abbrev S16x5776x255 : Shape := ⟨3, ![16, 5776, 255]⟩
abbrev S4x76x16x255 : Shape := ⟨4, ![4, 76, 16, 255]⟩
abbrev S16x304x255 : Shape := ⟨3, ![16, 304, 255]⟩
abbrev S1x1x1x255 : Shape := ⟨4, ![1, 1, 1, 255]⟩
abbrev S1x76x1x1 : Shape := ⟨4, ![1, 76, 1, 1]⟩
abbrev S4x1x1x1 : Shape := ⟨4, ![4, 1, 1, 1]⟩
abbrev S1x76x1x255 : Shape := ⟨4, ![1, 76, 1, 255]⟩
abbrev S4x1x1x255 : Shape := ⟨4, ![4, 1, 1, 255]⟩
abbrev S16x4x76x255 : Shape := ⟨4, ![16, 4, 76, 255]⟩
abbrev S16x17328x85 : Shape := ⟨3, ![16, 17328, 85]⟩

abbrev nBuf : Space → Nat
  | .hbm => 40
  | .vmem => 5
  | .smem => 0
  | _ => 0

abbrev bufTy : (tb : Table) → Fin (tcTables nBuf tb) → BufTy
  | .hbm, ⟨0, _⟩ => ⟨S16x255x76x76, .f32⟩
  | .hbm, ⟨1, _⟩ => ⟨S_, .i32⟩
  | .hbm, ⟨2, _⟩ => ⟨S255, .f32⟩
  | .hbm, ⟨3, _⟩ => ⟨S255, .f32⟩
  | .hbm, ⟨4, _⟩ => ⟨S255, .f32⟩
  | .hbm, ⟨5, _⟩ => ⟨S255, .f32⟩
  | .hbm, ⟨6, _⟩ => ⟨S255, .f32⟩
  | .hbm, ⟨7, _⟩ => ⟨S76x76x16x255, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .f32⟩
  | .hbm, ⟨22, _⟩ => ⟨S_, .f32⟩
  | .hbm, ⟨23, _⟩ => ⟨S255, .f32⟩
  | .hbm, ⟨24, _⟩ => ⟨S255, .f32⟩
  | .hbm, ⟨25, _⟩ => ⟨S255, .f32⟩
  | .hbm, ⟨26, _⟩ => ⟨S255, .f32⟩
  | .hbm, ⟨27, _⟩ => ⟨S255, .f32⟩
  | .hbm, ⟨28, _⟩ => ⟨S255, .f32⟩
  | .hbm, ⟨29, _⟩ => ⟨S255, .f32⟩
  | .hbm, ⟨30, _⟩ => ⟨S255, .f32⟩
  | .hbm, ⟨31, _⟩ => ⟨S255, .f32⟩
  | .hbm, ⟨32, _⟩ => ⟨S255, .f32⟩
  | .hbm, ⟨33, _⟩ => ⟨S1x255, .f32⟩
  | .hbm, ⟨34, _⟩ => ⟨S1x255, .f32⟩
  | .hbm, ⟨35, _⟩ => ⟨S1x255, .f32⟩
  | .hbm, ⟨36, _⟩ => ⟨S1x255, .f32⟩
  | .hbm, ⟨37, _⟩ => ⟨S4x255, .f32⟩
  | .hbm, ⟨38, _⟩ => ⟨S16x5776x255, .f32⟩
  | .hbm, ⟨39, _⟩ => ⟨S16x17328x85, .f32⟩
  | .local _ .vmem, ⟨0, _⟩ => ⟨S4x76x16x255, .f32⟩
  | .local _ .vmem, ⟨1, _⟩ => ⟨S4x76x16x255, .f32⟩
  | .local _ .vmem, ⟨2, _⟩ => ⟨S4x255, .f32⟩
  | .local _ .vmem, ⟨3, _⟩ => ⟨S16x304x255, .f32⟩
  | .local _ .vmem, ⟨4, _⟩ => ⟨S16x304x255, .f32⟩
  | _, _ => ⟨S16x255x76x76, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_cst_2 : Ref sig .tc := ⟨.hbm, 5, rfl⟩
abbrev main_cst_3 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c : Ref sig .tc := ⟨.hbm, 15, rfl⟩
abbrev main_call0_v6 : Ref sig .tc := ⟨.hbm, 16, rfl⟩
abbrev main_call0_v7 : Ref sig .tc := ⟨.hbm, 17, rfl⟩
abbrev main_call0_c_0 : Ref sig .tc := ⟨.hbm, 18, rfl⟩
abbrev main_call0_v8 : Ref sig .tc := ⟨.hbm, 19, rfl⟩
abbrev main_v1 : Ref sig .tc := ⟨.hbm, 20, rfl⟩
abbrev main_v2 : Ref sig .tc := ⟨.hbm, 21, rfl⟩
abbrev main_cst_4 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![19], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x76x16x255 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x255 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x304x255 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S16x255x76x76_S76x76x16x255_2_3_0_1 : S16x255x76x76.Transposes [2, 3, 0, 1] S76x76x16x255
  bcast_S_S255 : S_.BroadcastsInDim S255 (![] : Fin 0 → Fin S255.rank)
  bcast_S255_S1x255_1 : S255.BroadcastsInDim S1x255 (![1] : Fin 1 → Fin S1x255.rank)
  concatenates_S1x255_S1x255_S1x255_S1x255_S4x255_d0 : Shape.Concatenates [S1x255, S1x255, S1x255, S1x255] S4x255 0
  inb_S4x76x16x255_S4x76x16x255_0_0_0_0 : ∀ a, (![0, 0, 0, 0] : Fin 4 → Nat) a + S4x76x16x255.size a ≤ S4x76x16x255.size a
  h_S4x76x16x255 : 0 < S4x76x16x255.numel
  shapeCasts_S4x76x16x255_S4x76x16x255 : S4x76x16x255.ShapeCasts S4x76x16x255
  inb_S4x255_S1x255_0_0 : ∀ a, (![0, 0] : Fin 2 → Nat) a + S1x255.size a ≤ S4x255.size a
  h_S1x255 : 0 < S1x255.numel
  shapeCasts_S1x255_S1x255 : S1x255.ShapeCasts S1x255
  shapeCasts_S1x255_S1x1x1x255 : S1x255.ShapeCasts S1x1x1x255
  inb_S4x255_S1x255_1_0 : ∀ a, (![1, 0] : Fin 2 → Nat) a + S1x255.size a ≤ S4x255.size a
  inb_S4x255_S1x255_2_0 : ∀ a, (![2, 0] : Fin 2 → Nat) a + S1x255.size a ≤ S4x255.size a
  inb_S4x255_S1x255_3_0 : ∀ a, (![3, 0] : Fin 2 → Nat) a + S1x255.size a ≤ S4x255.size a
  broadcasts_S1x1x1x255_S4x76x16x255 : S1x1x1x255.Broadcasts S4x76x16x255
  iota_S1x76x1x1_d1_w32 : S1x76x1x1.Iotas .tc 32 [1]
  iota_S4x1x1x1_d0_w32 : S4x1x1x1.Iotas .tc 32 [0]
  broadcasts_S1x1x1x255_S1x76x1x255 : S1x1x1x255.Broadcasts S1x76x1x255
  broadcasts_S1x76x1x1_S1x76x1x255 : S1x76x1x1.Broadcasts S1x76x1x255
  broadcasts_S1x76x1x255_S4x76x16x255 : S1x76x1x255.Broadcasts S4x76x16x255
  broadcasts_S1x1x1x255_S4x1x1x255 : S1x1x1x255.Broadcasts S4x1x1x255
  broadcasts_S4x1x1x1_S4x1x1x255 : S4x1x1x1.Broadcasts S4x1x1x255
  broadcasts_S4x1x1x255_S4x76x16x255 : S4x1x1x255.Broadcasts S4x76x16x255
  transposes_S4x76x16x255_p2_0_1_3_S16x4x76x255 : S4x76x16x255.Transposes [2, 0, 1, 3] S16x4x76x255
  shapeCasts_S16x4x76x255_S16x304x255 : S16x4x76x255.ShapeCasts S16x304x255
  inb_S16x304x255_S16x304x255_0_0_0 : ∀ a, (![0, 0, 0] : Fin 3 → Nat) a + S16x304x255.size a ≤ S16x304x255.size a
  h_S16x304x255 : 0 < S16x304x255.numel
  shapeCasts_S16x5776x255_S16x17328x85 : S16x5776x255.ShapeCasts S16x17328x85
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x76x16x255.size a ≤ S76x76x16x255.size a
  hwx0_0 : ∀ i : grid0.Coords, EltTy.bits .f32 = 32 ∨ (Rect.block (s := S76x76x16x255) S4x76x16x255.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x255.size a ≤ S4x255.size a
  hwx0_1 : ∀ i : grid0.Coords, EltTy.bits .f32 = 32 ∨ (Rect.block (s := S4x255) S4x255.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x304x255.size a ≤ S16x5776x255.size a
  hwx0_2 : ∀ i : grid0.Coords, EltTy.bits .f32 = 32 ∨ (Rect.block (s := S16x5776x255) S16x304x255.size (cc0_transform_2 i) (hinb0_2 i)).WholeWords (EltTy.packing .f32)

variable [Facts₀]

abbrev win0_0 : Pipeline.Window sig grid0 :=
  Pipeline.Window.ofSpec (Memref.whole main_v0) S4x76x16x255.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4x255.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S16x304x255.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x255x76x76 : Shape := ⟨4, ![16, 255, 76, 76]⟩
abbrev S_ : Shape := ⟨0, ![]⟩
abbrev S3x2 : Shape := ⟨2, ![3, 2]⟩
abbrev S16x3x85x5776 : Shape := ⟨4, ![16, 3, 85, 5776]⟩
abbrev S16x5776x3x85 : Shape := ⟨4, ![16, 5776, 3, 85]⟩
abbrev S16x5776x3x2 : Shape := ⟨4, ![16, 5776, 3, 2]⟩
abbrev S1x1x3x2 : Shape := ⟨4, ![1, 1, 3, 2]⟩
abbrev S16x5776x3x81 : Shape := ⟨4, ![16, 5776, 3, 81]⟩
abbrev S76 : Shape := ⟨1, ![76]⟩
abbrev S76x76 : Shape := ⟨2, ![76, 76]⟩
abbrev S5776 : Shape := ⟨1, ![5776]⟩
abbrev S16x5776x3x1 : Shape := ⟨4, ![16, 5776, 3, 1]⟩
abbrev S16x5776x3 : Shape := ⟨3, ![16, 5776, 3]⟩
abbrev S1x5776x1 : Shape := ⟨3, ![1, 5776, 1]⟩
abbrev S16x17328x85 : Shape := ⟨3, ![16, 17328, 85]⟩

abbrev nBuf : Space → Nat
  | .hbm => 77
  | .vmem => 0
  | .smem => 0
  | _ => 0

abbrev bufTy : (tb : Table) → Fin (tcTables nBuf tb) → BufTy
  | .hbm, ⟨0, _⟩ => ⟨S16x255x76x76, .f32⟩
  | .hbm, ⟨1, _⟩ => ⟨S_, .i32⟩
  | .hbm, ⟨2, _⟩ => ⟨S3x2, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .f32⟩
  | .hbm, ⟨17, _⟩ => ⟨S3x2, .f32⟩
  | .hbm, ⟨18, _⟩ => ⟨S3x2, .f32⟩
  | .hbm, ⟨19, _⟩ => ⟨S16x3x85x5776, .f32⟩
  | .hbm, ⟨20, _⟩ => ⟨S16x5776x3x85, .f32⟩
  | .hbm, ⟨21, _⟩ => ⟨S16x5776x3x2, .f32⟩
  | .hbm, ⟨22, _⟩ => ⟨S16x5776x3x2, .f32⟩
  | .hbm, ⟨23, _⟩ => ⟨S16x5776x3x2, .f32⟩
  | .hbm, ⟨24, _⟩ => ⟨S_, .f32⟩
  | .hbm, ⟨25, _⟩ => ⟨S16x5776x3x2, .f32⟩
  | .hbm, ⟨26, _⟩ => ⟨S16x5776x3x2, .f32⟩
  | .hbm, ⟨27, _⟩ => ⟨S_, .f32⟩
  | .hbm, ⟨28, _⟩ => ⟨S16x5776x3x2, .f32⟩
  | .hbm, ⟨29, _⟩ => ⟨S16x5776x3x2, .f32⟩
  | .hbm, ⟨30, _⟩ => ⟨S_, .f32⟩
  | .hbm, ⟨31, _⟩ => ⟨S16x5776x3x2, .f32⟩
  | .hbm, ⟨32, _⟩ => ⟨S16x5776x3x2, .f32⟩
  | .hbm, ⟨33, _⟩ => ⟨S_, .f32⟩
  | .hbm, ⟨34, _⟩ => ⟨S16x5776x3x2, .f32⟩
  | .hbm, ⟨35, _⟩ => ⟨S16x5776x3x2, .f32⟩
  | .hbm, ⟨36, _⟩ => ⟨S16x5776x3x2, .f32⟩
  | .hbm, ⟨37, _⟩ => ⟨S16x5776x3x2, .f32⟩
  | .hbm, ⟨38, _⟩ => ⟨S1x1x3x2, .f32⟩
  | .hbm, ⟨39, _⟩ => ⟨S16x5776x3x2, .f32⟩
  | .hbm, ⟨40, _⟩ => ⟨S16x5776x3x2, .f32⟩
  | .hbm, ⟨41, _⟩ => ⟨S16x5776x3x81, .f32⟩
  | .hbm, ⟨42, _⟩ => ⟨S16x5776x3x81, .f32⟩
  | .hbm, ⟨43, _⟩ => ⟨S16x5776x3x81, .f32⟩
  | .hbm, ⟨44, _⟩ => ⟨S_, .f32⟩
  | .hbm, ⟨45, _⟩ => ⟨S16x5776x3x81, .f32⟩
  | .hbm, ⟨46, _⟩ => ⟨S16x5776x3x81, .f32⟩
  | .hbm, ⟨47, _⟩ => ⟨S_, .f32⟩
  | .hbm, ⟨48, _⟩ => ⟨S16x5776x3x81, .f32⟩
  | .hbm, ⟨49, _⟩ => ⟨S16x5776x3x81, .f32⟩
  | .hbm, ⟨50, _⟩ => ⟨S76, .i32⟩
  | .hbm, ⟨51, _⟩ => ⟨S76x76, .i32⟩
  | .hbm, ⟨52, _⟩ => ⟨S76x76, .i32⟩
  | .hbm, ⟨53, _⟩ => ⟨S5776, .i32⟩
  | .hbm, ⟨54, _⟩ => ⟨S5776, .f32⟩
  | .hbm, ⟨55, _⟩ => ⟨S5776, .i32⟩
  | .hbm, ⟨56, _⟩ => ⟨S5776, .f32⟩
  | .hbm, ⟨57, _⟩ => ⟨S16x5776x3x1, .f32⟩
  | .hbm, ⟨58, _⟩ => ⟨S16x5776x3, .f32⟩
  | .hbm, ⟨59, _⟩ => ⟨S1x5776x1, .f32⟩
  | .hbm, ⟨60, _⟩ => ⟨S16x5776x3, .f32⟩
  | .hbm, ⟨61, _⟩ => ⟨S16x5776x3, .f32⟩
  | .hbm, ⟨62, _⟩ => ⟨S16x5776x3, .f32⟩
  | .hbm, ⟨63, _⟩ => ⟨S16x5776x3, .f32⟩
  | .hbm, ⟨64, _⟩ => ⟨S16x5776x3x1, .f32⟩
  | .hbm, ⟨65, _⟩ => ⟨S16x5776x3, .f32⟩
  | .hbm, ⟨66, _⟩ => ⟨S1x5776x1, .f32⟩
  | .hbm, ⟨67, _⟩ => ⟨S16x5776x3, .f32⟩
  | .hbm, ⟨68, _⟩ => ⟨S16x5776x3, .f32⟩
  | .hbm, ⟨69, _⟩ => ⟨S16x5776x3, .f32⟩
  | .hbm, ⟨70, _⟩ => ⟨S16x5776x3, .f32⟩
  | .hbm, ⟨71, _⟩ => ⟨S16x5776x3x2, .f32⟩
  | .hbm, ⟨72, _⟩ => ⟨S16x5776x3x2, .f32⟩
  | .hbm, ⟨73, _⟩ => ⟨S16x5776x3x1, .f32⟩
  | .hbm, ⟨74, _⟩ => ⟨S16x5776x3x1, .f32⟩
  | .hbm, ⟨75, _⟩ => ⟨S16x5776x3x85, .f32⟩
  | .hbm, ⟨76, _⟩ => ⟨S16x17328x85, .f32⟩
  | _, _ => ⟨S16x255x76x76, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c : Ref sig .tc := ⟨.hbm, 10, rfl⟩
abbrev main_call0_v6 : Ref sig .tc := ⟨.hbm, 11, rfl⟩
abbrev main_call0_v7 : Ref sig .tc := ⟨.hbm, 12, rfl⟩
abbrev main_call0_c_0 : Ref sig .tc := ⟨.hbm, 13, rfl⟩
abbrev main_call0_v8 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]

class Facts₀ : Prop where
  bcast_S_S3x2 : S_.BroadcastsInDim S3x2 (![] : Fin 0 → Fin S3x2.rank)
  shapeCasts_S16x255x76x76_S16x3x85x5776 : S16x255x76x76.ShapeCasts S16x3x85x5776
  transposes_S16x3x85x5776_S16x5776x3x85_0_3_1_2 : S16x3x85x5776.Transposes [0, 3, 1, 2] S16x5776x3x85
  slices_S16x5776x3x85_S16x5776x3x2_0_0_0_0 : S16x5776x3x85.Slices ![0, 0, 0, 0] S16x5776x3x2
  bcast_S_S16x5776x3x2 : S_.BroadcastsInDim S16x5776x3x2 (![] : Fin 0 → Fin S16x5776x3x2.rank)
  slices_S16x5776x3x85_S16x5776x3x2_0_0_0_2 : S16x5776x3x85.Slices ![0, 0, 0, 2] S16x5776x3x2
  bcast_S3x2_S1x1x3x2_2_3 : S3x2.BroadcastsInDim S1x1x3x2 (![2, 3] : Fin 2 → Fin S1x1x3x2.rank)
  bcast_S1x1x3x2_S16x5776x3x2_0_1_2_3 : S1x1x3x2.BroadcastsInDim S16x5776x3x2 (![0, 1, 2, 3] : Fin 4 → Fin S16x5776x3x2.rank)
  slices_S16x5776x3x85_S16x5776x3x81_0_0_0_4 : S16x5776x3x85.Slices ![0, 0, 0, 4] S16x5776x3x81
  bcast_S_S16x5776x3x81 : S_.BroadcastsInDim S16x5776x3x81 (![] : Fin 0 → Fin S16x5776x3x81.rank)
  bcast_S76_S76x76_0 : S76.BroadcastsInDim S76x76 (![0] : Fin 1 → Fin S76x76.rank)
  bcast_S76_S76x76_1 : S76.BroadcastsInDim S76x76 (![1] : Fin 1 → Fin S76x76.rank)
  shapeCasts_S76x76_S5776 : S76x76.ShapeCasts S5776
  slices_S16x5776x3x2_S16x5776x3x1_0_0_0_0 : S16x5776x3x2.Slices ![0, 0, 0, 0] S16x5776x3x1
  shapeCasts_S16x5776x3x1_S16x5776x3 : S16x5776x3x1.ShapeCasts S16x5776x3
  bcast_S5776_S1x5776x1_1 : S5776.BroadcastsInDim S1x5776x1 (![1] : Fin 1 → Fin S1x5776x1.rank)
  bcast_S1x5776x1_S16x5776x3_0_1_2 : S1x5776x1.BroadcastsInDim S16x5776x3 (![0, 1, 2] : Fin 3 → Fin S16x5776x3.rank)
  bcast_S_S16x5776x3 : S_.BroadcastsInDim S16x5776x3 (![] : Fin 0 → Fin S16x5776x3.rank)
  slices_S16x5776x3x2_S16x5776x3x1_0_0_0_1 : S16x5776x3x2.Slices ![0, 0, 0, 1] S16x5776x3x1
  bcast_S16x5776x3_S16x5776x3x1_0_1_2 : S16x5776x3.BroadcastsInDim S16x5776x3x1 (![0, 1, 2] : Fin 3 → Fin S16x5776x3x1.rank)
  concatenates_S16x5776x3x1_S16x5776x3x1_S16x5776x3x2_S16x5776x3x81_S16x5776x3x85_d3 : Shape.Concatenates [S16x5776x3x1, S16x5776x3x1, S16x5776x3x2, S16x5776x3x81] S16x5776x3x85 3
  shapeCasts_S16x5776x3x85_S16x17328x85 : S16x5776x3x85.ShapeCasts S16x17328x85

variable [Facts₀]

class Facts : Prop extends Facts₀ where

variable [Facts]
-- ==== Proof.FrameK.lean ====
/-
  The frame of `Kernel`: every weakly fair execution of @main on the TensorCores terminates without a fault, and the two
  argument arrays end as they were launched.

  @main is three stretches of host operations (the tables of per-channel coefficients, the transposed input, the
  stride as a floored quotient, the four coefficient rows concatenated), the one pipelined region over a grid of 19
  points, and a reshape of the region's result. The region has three windows: a block of 4 grid rows of the transposed
  input, fetched at every point; the whole 4 × 255 coefficient table, fetched once; and the block of 16 × 304 × 255
  results, written back at every point. The body keeps nothing between points: it loads the two input buffers through
  literal rectangles, and stores one value — a function of those loads and of the grid position — over the whole
  output buffer.
-/
import proofs.«155525_g56642028700200_fold_wed_c4_437_22_alg».proof.Proof.Gen.Kernel.Launch
import proofs.«155525_g56642028700200_fold_wed_c4_437_22_alg».proof.Proof.Gen.Kernel.Skeleton
import proofs.«155525_g56642028700200_fold_wed_c4_437_22_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.HandFrame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: the launch contents after the
    three stretches of host operations before the region. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: holding the unscoped buffers at the launch contents, it reduces to the region, entered
    with them at `V`, continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the region touches the result array and its own result only: unscoped TensorCore buffers, each
    an array of the pipeline or a buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: its result buffer is none of the three. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region, and `main_arg0` is no window's array: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor does the reshape after the region, and `main_arg1` is no window's array: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is `V`'s and whose body leaves the block in place: where the pipeline does not fetch, the block index
    has not moved, and the buffer still holds the previous point's block, which is this point's. Window 0 is fetched
    at every point; window 1's index map is constant, and it is fetched at the first point only. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The two argument arrays are no window's array (the windows read the transposed input and the coefficient table,
    and write the result): the frame run's post holds each at what the reshape after the region leaves of the
    region-entry contents, which is the launch contents (`W_main_arg0`, `W_main_arg1`). -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c)⟩) h

/-! ## The body's accesses -/

/-- The whole input block; the four rows of the coefficient table; the whole output block. -/
abbrev r0_0 : Rect S4x76x16x255 := Rect.unit (s := S4x76x16x255) ![0, 0, 0, 0] S4x76x16x255.size inb_S4x76x16x255_S4x76x16x255_0_0_0_0
abbrev r1_0 : Rect S4x255 := Rect.unit (s := S4x255) ![0, 0] S1x255.size inb_S4x255_S1x255_0_0
abbrev r1_1 : Rect S4x255 := Rect.unit (s := S4x255) ![1, 0] S1x255.size inb_S4x255_S1x255_1_0
abbrev r1_2 : Rect S4x255 := Rect.unit (s := S4x255) ![2, 0] S1x255.size inb_S4x255_S1x255_2_0
abbrev r1_3 : Rect S4x255 := Rect.unit (s := S4x255) ![3, 0] S1x255.size inb_S4x255_S1x255_3_0
abbrev r2_0 : Rect S16x304x255 := Rect.unit (s := S16x304x255) ![0, 0, 0] S16x304x255.size inb_S16x304x255_S16x304x255_0_0_0

/-! ## What the body leaves in the output window's buffer -/

/-- Window 2's staging buffer after the body at grid position `i`, from the two input windows' blocks: its one store,
    over the whole buffer, of the payload of the five loads. -/
def out0_2 (i : grid0.Coords) (x0 : Vec F S4x76x16x255 .f32) (x1 : Vec F S4x255 .f32) : Vec F S16x304x255 .f32 :=
  View.canon [⟨r2_0, k0_pay1 i (View.ld x0 r0_0) (View.ld x1 r1_0) (View.ld x1 r1_1) (View.ld x1 r1_2) (View.ld x1 r1_3)⟩]

/-- The one store covers the buffer (checked by evaluation). -/
theorem cover0_2 (p0 : Vec F S16x304x255 .f32) (y : S16x304x255.Idx) :
    ∃ pc ∈ ([⟨r2_0, p0⟩] : List (View.Piece (Elt F) S16x304x255 .f32)), y ∈ pc.1.set :=
  View.cover_of_tiled [⟨r2_0, p0⟩] S16x304x255.size (by rfl) y

/-! ## The body's triple -/

set_option maxHeartbeats 1000000 in
/-- The kernel body at grid position `i` on whole staging memrefs, the inputs' at read contents `x0`, `x1` and the
    output's at anything, runs to the continuation holding the inputs' as they were and the output's at `out0_2 i x0 x1`:
    five loads of the inputs, a load of the output buffer whose value is not used, and the one covering store. -/
theorem sound_kernel (c : Dev nD) (E : Set ℕ) (i : grid0.Coords) (arg1 : Memref sig .tc .vmem S4x76x16x255 .f32) (harg1 : arg1.IsWhole) (arg2 : Memref sig .tc .vmem S4x255 .f32) (harg2 : arg2.IsWhole) (arg3 : Memref sig .tc .vmem S16x304x255 .f32) (harg3 : arg3.IsWhole)
    (x0 : Vec F S4x76x16x255 .f32) (x1 : Vec F S4x255 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 i x0 x1)) -∗ K ⟨⟩))
      ⊢ wp frame (wpE (defs₀ (F := F)) Variants.none c none) E (cc0__decode_kernel i arg1 harg1 arg2 harg2 arg3 harg3) K := by
  simp only [cc0__decode_kernel_eq_skeleton]; unfold cc0__decode_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The pipeline's proof data -/

/-- The proof data of the one pipeline on core `c`: the arrays as the region finds them (`V`); after the body at
    point `t` each input's buffer at its block and the output's at `out0_2` of the grid position and the input blocks;
    the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (grid0.coords t) (iblk m c 0 t) (iblk m c 1 t)
  Φ _ := Pipeline.ΦA spec0 c
  q _ := fullShare
  owed _ := 0

/-- The proof data's arrays are the region-entry contents: the definition projected, `V` never unfolded. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (grid0.coords t) (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies at the point's grid
    position; the invariant and the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on the
    TensorCores terminates, and every final state has every array of the pipeline at what the proof data give — an input
    its region-entry contents, the output those overwritten block by block by what the body left at each point — and
    every other unscoped buffer at what the reshape after the region leaves of the region-entry contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.HandFrame.run_main' depends on axioms: [propext, Classical.choice, Quot.sound] -/
#guard_msgs in #print axioms run_main

/-- The frame: @main runs, and its two argument arrays end unchanged — no host operation writes either, and neither
    is an array the pipeline stages. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.HandFrame

end
-- ==== Proof.FrameKI.lean ====
/-
  The frame of `KernelIdeal`: every weakly fair execution of @main on the TensorCores terminates without a fault, and the two
  argument arrays end as they were launched.

  @main is three stretches of host operations (the tables of per-channel coefficients, the transposed input, the
  stride as a floored quotient, the four coefficient rows concatenated), the one pipelined region over a grid of 19
  points, and a reshape of the region's result. The region has three windows: a block of 4 grid rows of the transposed
  input, fetched at every point; the whole 4 × 255 coefficient table, fetched once; and the block of 16 × 304 × 255
  results, written back at every point. The body keeps nothing between points: it loads the two input buffers through
  literal rectangles, and stores one value — a function of those loads and of the grid position — over the whole
  output buffer.
-/
import proofs.«155525_g56642028700200_fold_wed_c4_437_22_alg».proof.Proof.Gen.KernelIdeal.Launch
import proofs.«155525_g56642028700200_fold_wed_c4_437_22_alg».proof.Proof.Gen.KernelIdeal.Skeleton
import proofs.«155525_g56642028700200_fold_wed_c4_437_22_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.HandFrame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: the launch contents after the
    three stretches of host operations before the region. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: holding the unscoped buffers at the launch contents, it reduces to the region, entered
    with them at `V`, continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the region touches the result array and its own result only: unscoped TensorCore buffers, each
    an array of the pipeline or a buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: its result buffer is none of the three. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region, and `main_arg0` is no window's array: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor does the reshape after the region, and `main_arg1` is no window's array: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is `V`'s and whose body leaves the block in place: where the pipeline does not fetch, the block index
    has not moved, and the buffer still holds the previous point's block, which is this point's. Window 0 is fetched
    at every point; window 1's index map is constant, and it is fetched at the first point only. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The two argument arrays are no window's array (the windows read the transposed input and the coefficient table,
    and write the result): the frame run's post holds each at what the reshape after the region leaves of the
    region-entry contents, which is the launch contents (`W_main_arg0`, `W_main_arg1`). -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c)⟩) h

/-! ## The body's accesses -/

/-- The whole input block; the four rows of the coefficient table; the whole output block. -/
abbrev r0_0 : Rect S4x76x16x255 := Rect.unit (s := S4x76x16x255) ![0, 0, 0, 0] S4x76x16x255.size inb_S4x76x16x255_S4x76x16x255_0_0_0_0
abbrev r1_0 : Rect S4x255 := Rect.unit (s := S4x255) ![0, 0] S1x255.size inb_S4x255_S1x255_0_0
abbrev r1_1 : Rect S4x255 := Rect.unit (s := S4x255) ![1, 0] S1x255.size inb_S4x255_S1x255_1_0
abbrev r1_2 : Rect S4x255 := Rect.unit (s := S4x255) ![2, 0] S1x255.size inb_S4x255_S1x255_2_0
abbrev r1_3 : Rect S4x255 := Rect.unit (s := S4x255) ![3, 0] S1x255.size inb_S4x255_S1x255_3_0
abbrev r2_0 : Rect S16x304x255 := Rect.unit (s := S16x304x255) ![0, 0, 0] S16x304x255.size inb_S16x304x255_S16x304x255_0_0_0

/-! ## What the body leaves in the output window's buffer -/

/-- Window 2's staging buffer after the body at grid position `i`, from the two input windows' blocks: its one store,
    over the whole buffer, of the payload of the five loads. -/
def out0_2 (i : grid0.Coords) (x0 : Vec F S4x76x16x255 .f32) (x1 : Vec F S4x255 .f32) : Vec F S16x304x255 .f32 :=
  View.canon [⟨r2_0, k0_pay1 i (View.ld x0 r0_0) (View.ld x1 r1_0) (View.ld x1 r1_1) (View.ld x1 r1_2) (View.ld x1 r1_3)⟩]

/-- The one store covers the buffer (checked by evaluation). -/
theorem cover0_2 (p0 : Vec F S16x304x255 .f32) (y : S16x304x255.Idx) :
    ∃ pc ∈ ([⟨r2_0, p0⟩] : List (View.Piece (Elt F) S16x304x255 .f32)), y ∈ pc.1.set :=
  View.cover_of_tiled [⟨r2_0, p0⟩] S16x304x255.size (by rfl) y

/-! ## The body's triple -/

set_option maxHeartbeats 1000000 in
/-- The kernel body at grid position `i` on whole staging memrefs, the inputs' at read contents `x0`, `x1` and the
    output's at anything, runs to the continuation holding the inputs' as they were and the output's at `out0_2 i x0 x1`:
    five loads of the inputs, a load of the output buffer whose value is not used, and the one covering store. -/
theorem sound_kernel (c : Dev nD) (E : Set ℕ) (i : grid0.Coords) (arg1 : Memref sig .tc .vmem S4x76x16x255 .f32) (harg1 : arg1.IsWhole) (arg2 : Memref sig .tc .vmem S4x255 .f32) (harg2 : arg2.IsWhole) (arg3 : Memref sig .tc .vmem S16x304x255 .f32) (harg3 : arg3.IsWhole)
    (x0 : Vec F S4x76x16x255 .f32) (x1 : Vec F S4x255 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 i x0 x1)) -∗ K ⟨⟩))
      ⊢ wp frame (wpE (defs₀ (F := F)) Variants.none c none) E (cc0__decode_kernel i arg1 harg1 arg2 harg2 arg3 harg3) K := by
  simp only [cc0__decode_kernel_eq_skeleton]; unfold cc0__decode_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The pipeline's proof data -/

/-- The proof data of the one pipeline on core `c`: the arrays as the region finds them (`V`); after the body at
    point `t` each input's buffer at its block and the output's at `out0_2` of the grid position and the input blocks;
    the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (grid0.coords t) (iblk m c 0 t) (iblk m c 1 t)
  Φ _ := Pipeline.ΦA spec0 c
  q _ := fullShare
  owed _ := 0

/-- The proof data's arrays are the region-entry contents: the definition projected, `V` never unfolded. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (grid0.coords t) (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies at the point's grid
    position; the invariant and the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on the
    TensorCores terminates, and every final state has every array of the pipeline at what the proof data give — an input
    its region-entry contents, the output those overwritten block by block by what the body left at each point — and
    every other unscoped buffer at what the reshape after the region leaves of the region-entry contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.HandFrame.run_main' depends on axioms: [propext, Classical.choice, Quot.sound] -/
#guard_msgs in #print axioms run_main

/-- The frame: @main runs, and its two argument arrays end unchanged — no host operation writes either, and neither
    is an array the pipeline stages. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.HandFrame

end
-- ==== Proof.Spec.lean ====
/-
  The decoded boxes of one detection scale, as ONE function of the input map and the stride.

  The input is a map `x[b, c, gy, gx]` over 16 images, 255 channels and a 76 × 76 grid of cells; channel
  `c = a · 85 + t` is attribute `t` of anchor `a`. The output row `r = (gy · 76 + gx) · 3 + a` of image `b` holds the 85
  attributes of anchor `a` at cell `(gy, gx)`: with `v = x[b, a · 85 + t, gy, gx]`, `σ v = 1 / (1 + e^(-v))` and `s` the stride,
    t = 0 : (σ v + gx) · s        t = 1 : (σ v + gy) · s
    t = 2, 3 : e^v · anchor[a][t - 2]      t ≥ 4 : σ v.
  Two spellings of it are stated here, index by index over literal shapes: `viaQuotient` divides the anchor by the
  stride and multiplies the stride back (and carries a factor one and a subtrahend zero), `viaTables` reads every
  per-channel coefficient out of five tables of 255 words and has one quotient `rm / (adder + e^(-v))` for all five
  kinds of channel. That the two agree on finite inputs and a non-zero stride is Algebra.lean.
-/
import Idealize.ShloMosaic.PureOps.Ideal
import Idealize.ShloMosaic.Lib.ValueIdx

noncomputable section

namespace Cert.Yolo

open Idealize.ShloMosaic Idealize.ShloMosaic.ValueIdx

/-- The input map's shape, the result's, and a scalar's. -/
abbrev SX : Shape := ⟨4, ![16, 255, 76, 76]⟩
abbrev SOut : Shape := ⟨3, ![16, 17328, 85]⟩
abbrev SScalar : Shape := ⟨0, ![]⟩

/-- The integer stride `input_dim // 76`: the truncating quotient, less one when the signs differ and the
    remainder is not zero. -/
def strideI (a : IVec SScalar 32) : IVec SScalar 32 :=
  select (andi (cmpi .ne (signi a) (signi (constantI SScalar 32 76#32)))
      (cmpi .ne (Host.remsi a (constantI SScalar 32 76#32)) (constantI SScalar 32 0#32)))
    (subi (Host.divsi a (constantI SScalar 32 76#32)) (constantI SScalar 32 1#32))
    (Host.divsi a (constantI SScalar 32 76#32))

/-- The stride as the extended real both programs multiply by: the integer, read signed, exactly. -/
def stride (a : IVec SScalar 32) : EReal := (((strideI a ix0).toInt : ℝ) : EReal)

/-- The float words for one and zero. -/
abbrev one : EReal := Ideal.ofBits .f32 0x3F800000#32
abbrev zero : EReal := Ideal.ofBits .f32 0x00000000#32

/-- A grid coordinate as a float: the 32-bit word of the number, read signed. -/
def off (n : ℕ) : EReal := ((((BitVec.ofNat 32 n).toInt : ℤ) : ℝ) : EReal)

/-- Row `r` of the result is anchor `r % 3` of cell `r / 3`, the cell at grid row `r / 3 / 76` and column `r / 3 % 76`;
    its attribute `t` is channel `(r % 3) · 85 + t` of the input. -/
def anchorOf (r : Fin 17328) : Fin 3 := ⟨r.val % 3, by omega⟩
def chan (r : Fin 17328) (t : Fin 85) : Fin 255 := ⟨r.val % 3 * 85 + t.val, by omega⟩
def gyOf (r : Fin 17328) : Fin 76 := ⟨r.val / 3 / 76, by omega⟩
def gxOf (r : Fin 17328) : Fin 76 := ⟨r.val / 3 % 76, by omega⟩

/-- The input entry result entry `(b, r, t)` is computed from. -/
def inp (x : SX.Idx → EReal) (b : Fin 16) (r : Fin 17328) (t : Fin 85) : EReal :=
  x (ix4 b (chan r t) (gyOf r) (gxOf r))

/-- The anchors' widths and heights (10, 13; 16, 30; 33, 23), as float words. -/
def anchorBits : Fin 3 → Fin 2 → BitVec 32
  | 0, 0 => 0x41200000#32 | 0, 1 => 0x41500000#32
  | 1, 0 => 0x41800000#32 | 1, 1 => 0x41F00000#32
  | 2, 0 => 0x42040000#32 | 2, 1 => 0x41B80000#32

/-- The logistic function as a quotient. -/
def sigm (v : EReal) : EReal := Ideal.div one (one + Ideal.exp (-v))

/-- The result with the anchor divided by the stride and multiplied back. -/
def viaQuotient (x : SX.Idx → EReal) (s : EReal) (b : Fin 16) (r : Fin 17328) (t : Fin 85) : EReal :=
  if t.val = 0 then (sigm (inp x b r t) * one - zero + off (gxOf r).val) * s
  else if t.val = 1 then (sigm (inp x b r t) * one - zero + off (gyOf r).val) * s
  else if h : t.val < 4 then
    Ideal.exp (inp x b r t) * Ideal.div (Ideal.ofBits .f32 (anchorBits (anchorOf r) ⟨t.val - 2, by omega⟩)) s * s
  else sigm (inp x b r t)

/-- The result with every coefficient read from a table of 255 words: `L0` marks the two offset channels of an anchor,
    `L1` the multiplier of the others, `L2` the term added to `e^(-v)`, `L3` and `L4` the column- and the
    row-offset channel. -/
def viaTables (L0 L1 L2 L3 L4 : Fin 255 → BitVec 32) (x : SX.Idx → EReal) (s : EReal)
    (b : Fin 16) (r : Fin 17328) (t : Fin 85) : EReal :=
  Ideal.div (Ideal.ofBits .f32 (L1 (chan r t)) * (one - Ideal.ofBits .f32 (L0 (chan r t))) + s * Ideal.ofBits .f32 (L0 (chan r t)))
      (Ideal.ofBits .f32 (L2 (chan r t)) + Ideal.exp (zero - inp x b r t))
    + Ideal.ofBits .f32 (L3 (chan r t)) * s * off (gxOf r).val
    + Ideal.ofBits .f32 (L4 (chan r t)) * s * off (gyOf r).val

end Cert.Yolo

end
-- ==== Proof.KPayload.lean ====
/-
  The one value the body stores, read at an index.

  The body loads a block `v` of shape [4, 76, 16, 255] (local grid row, column, image, channel) and four rows of 255
  per-channel coefficients, and stores, re-laid as [16, 304, 255] (image, local row · 76 + column, channel),
      rm / (adder + e^(0 − v)) + cx · column + cy · (4 · point + local row),
  the column and the row counted as 32-bit words and converted exactly. Here that value is read at one index
  `(image, q, channel)` with `q = local row · 76 + column`.
-/
import proofs.«155525_g56642028700200_fold_wed_c4_437_22_alg».proof.Proof.Gen.KernelIdeal.Skeleton
import proofs.«155525_g56642028700200_fold_wed_c4_437_22_alg».proof.Proof.Spec
import Idealize.ShloMosaic.Lib.ValueIdx
import Idealize.ShloMosaic.Lib.ValueLayout
import Idealize.ShloMosaic.Lib.Pipeline.Value

noncomputable section

namespace Cert.KernelIdeal.KValue

open Idealize.ShloMosaic Idealize.ShloMosaic.ValueIdx Cert.KernelIdeal

variable {α : Type}

/-! ## The layout operations of the body at literal shapes -/

/-- A row of 255 coefficients cast to itself and then to [1, 1, 1, 255] reads, at channel `cc`, the row at `cc`. -/
theorem row_cast_apply (v : S1x255.Idx → α) (h1 : S1x255.ShapeCasts S1x255) (h2 : S1x255.ShapeCasts S1x1x1x255)
    (a b c : Fin 1) (cc : Fin 255) :
    shapeCast S1x1x1x255 (shapeCast S1x255 v h1) h2 (ix4 a b c cc) = v (ix2 (0 : Fin 1) cc) := by
  rw [shapeCast_self]
  refine shapeCast_apply v h2 _ _ ?_
  have ha : a.val = 0 := by omega
  have hb : b.val = 0 := by omega
  have hc : c.val = 0 := by omega
  rw [Shape.rowMajor_val_four, Shape.rowMajor_val_two]
  show 0 * 255 + cc.val = ((a.val * 1 + b.val) * 1 + c.val) * 255 + cc.val
  rw [ha, hb, hc]

/-- A [1, 1, 1, 255] row broadcast over the block reads its channel. -/
theorem bcast_row_block_apply (x : S1x1x1x255.Idx → α) (h : S1x1x1x255.Broadcasts S4x76x16x255)
    (r : Fin 4) (g : Fin 76) (b : Fin 16) (cc : Fin 255) :
    broadcastTo S4x76x16x255 x h (ix4 r g b cc) = x (ix4 (0 : Fin 1) (0 : Fin 1) (0 : Fin 1) cc) :=
  broadcastTo_apply x h _ _ fun a => by
    match a with
    | ⟨0, _⟩ => rfl
    | ⟨1, _⟩ => rfl
    | ⟨2, _⟩ => rfl
    | ⟨3, _⟩ => rfl

/-- A [1, 76, 1, 255] array broadcast over the block reads its column and channel. -/
theorem bcast_col_block_apply (x : S1x76x1x255.Idx → α) (h : S1x76x1x255.Broadcasts S4x76x16x255)
    (r : Fin 4) (g : Fin 76) (b : Fin 16) (cc : Fin 255) :
    broadcastTo S4x76x16x255 x h (ix4 r g b cc) = x (ix4 (0 : Fin 1) g (0 : Fin 1) cc) :=
  broadcastTo_apply x h _ _ fun a => by
    match a with
    | ⟨0, _⟩ => rfl
    | ⟨1, _⟩ => rfl
    | ⟨2, _⟩ => rfl
    | ⟨3, _⟩ => rfl

/-- A [4, 1, 1, 255] array broadcast over the block reads its local row and channel. -/
theorem bcast_rowidx_block_apply (x : S4x1x1x255.Idx → α) (h : S4x1x1x255.Broadcasts S4x76x16x255)
    (r : Fin 4) (g : Fin 76) (b : Fin 16) (cc : Fin 255) :
    broadcastTo S4x76x16x255 x h (ix4 r g b cc) = x (ix4 r (0 : Fin 1) (0 : Fin 1) cc) :=
  broadcastTo_apply x h _ _ fun a => by
    match a with
    | ⟨0, _⟩ => rfl
    | ⟨1, _⟩ => rfl
    | ⟨2, _⟩ => rfl
    | ⟨3, _⟩ => rfl

/-- A [1, 1, 1, 255] row broadcast over the columns reads its channel. -/
theorem bcast_row_col_apply (x : S1x1x1x255.Idx → α) (h : S1x1x1x255.Broadcasts S1x76x1x255)
    (u : Fin 1) (g : Fin 76) (w : Fin 1) (cc : Fin 255) :
    broadcastTo S1x76x1x255 x h (ix4 u g w cc) = x (ix4 (0 : Fin 1) (0 : Fin 1) (0 : Fin 1) cc) :=
  broadcastTo_apply x h _ _ fun a => by
    match a with
    | ⟨0, _⟩ => rfl
    | ⟨1, _⟩ => rfl
    | ⟨2, _⟩ => rfl
    | ⟨3, _⟩ => rfl

/-- A [1, 76, 1, 1] column array broadcast over the channels reads its column. -/
theorem bcast_col_chan_apply (x : S1x76x1x1.Idx → α) (h : S1x76x1x1.Broadcasts S1x76x1x255)
    (u : Fin 1) (g : Fin 76) (w : Fin 1) (cc : Fin 255) :
    broadcastTo S1x76x1x255 x h (ix4 u g w cc) = x (ix4 (0 : Fin 1) g (0 : Fin 1) (0 : Fin 1)) :=
  broadcastTo_apply x h _ _ fun a => by
    match a with
    | ⟨0, _⟩ => rfl
    | ⟨1, _⟩ => rfl
    | ⟨2, _⟩ => rfl
    | ⟨3, _⟩ => rfl

/-- A [1, 1, 1, 255] row broadcast over the local rows reads its channel. -/
theorem bcast_row_rows_apply (x : S1x1x1x255.Idx → α) (h : S1x1x1x255.Broadcasts S4x1x1x255)
    (r : Fin 4) (u w : Fin 1) (cc : Fin 255) :
    broadcastTo S4x1x1x255 x h (ix4 r u w cc) = x (ix4 (0 : Fin 1) (0 : Fin 1) (0 : Fin 1) cc) :=
  broadcastTo_apply x h _ _ fun a => by
    match a with
    | ⟨0, _⟩ => rfl
    | ⟨1, _⟩ => rfl
    | ⟨2, _⟩ => rfl
    | ⟨3, _⟩ => rfl

/-- A [4, 1, 1, 1] local-row array broadcast over the channels reads its local row. -/
theorem bcast_rows_chan_apply (x : S4x1x1x1.Idx → α) (h : S4x1x1x1.Broadcasts S4x1x1x255)
    (r : Fin 4) (u w : Fin 1) (cc : Fin 255) :
    broadcastTo S4x1x1x255 x h (ix4 r u w cc) = x (ix4 r (0 : Fin 1) (0 : Fin 1) (0 : Fin 1)) :=
  broadcastTo_apply x h _ _ fun a => by
    match a with
    | ⟨0, _⟩ => rfl
    | ⟨1, _⟩ => rfl
    | ⟨2, _⟩ => rfl
    | ⟨3, _⟩ => rfl

/-- The transpose [2, 0, 1, 3] of the block puts (local row, column, image, channel) at (image, local row, column,
    channel). -/
theorem transpose_block_apply (x : S4x76x16x255.Idx → α) (h : S4x76x16x255.Transposes [2, 0, 1, 3] S16x4x76x255)
    (b : Fin 16) (r : Fin 4) (g : Fin 76) (cc : Fin 255) :
    transpose S16x4x76x255 [2, 0, 1, 3] x h (ix4 b r g cc) = x (ix4 r g b cc) :=
  transpose_apply _ x h _ _ fun c => match c with | ⟨0, _⟩ => rfl | ⟨1, _⟩ => rfl | ⟨2, _⟩ => rfl | ⟨3, _⟩ => rfl

/-- The cast [16, 4, 76, 255] → [16, 304, 255] merges local row and column: entry `(b, q, cc)` is the operand's at
    `(b, q / 76, q % 76, cc)`. -/
theorem merge_cast_apply (x : S16x4x76x255.Idx → α) (h : S16x4x76x255.ShapeCasts S16x304x255)
    (b : Fin 16) (q : Fin 304) (cc : Fin 255) :
    shapeCast S16x304x255 x h (ix3 b q cc)
      = x (ix4 b (⟨q.val / 76, by omega⟩ : Fin 4) (⟨q.val % 76, by omega⟩ : Fin 76) cc) :=
  shapeCast_apply x h _ _ (by
    rw [Shape.rowMajor_val_four, Shape.rowMajor_val_three]
    show ((b.val * 4 + q.val / 76) * 76 + q.val % 76) * 255 + cc.val = (b.val * 304 + q.val) * 255 + cc.val
    omega)

/-! ## The two counters as 32-bit words -/

/-- The row counter `4 · point + local row`, computed in 32-bit words, is the word of that number. -/
theorem row_word (n k : Nat) (hn : n < 19) (hk : k < 4) :
    (BitVec.ofNat 32 n * 4#32 + BitVec.ofNat 32 k) = BitVec.ofNat 32 (4 * n + k) := by
  interval_cases n <;> interval_cases k <;> decide

/-! ## The payload at an index -/

open Cert.KernelIdeal.Gen in
/-- **The stored value at `(image bb, q, channel cc)`**, `q = local row · 76 + column`: the multiplier over the adder
    plus `e^(0 − v)`, plus the column coefficient times the column, plus the row coefficient times the grid row
    `4 · point + local row`. -/
theorem k0_pay1_apply (i : grid0.Coords) (v1 : Vec Ideal S4x76x16x255 .f32) (v6 v9 v12 v15 : Vec Ideal S1x255 .f32)
    (bb : Fin 16) (q : Fin 304) (cc : Fin 255) :
    k0_pay1 (F := Ideal) i v1 v6 v9 v12 v15 (ix3 bb q cc)
      = Ideal.div (v6 (ix2 (0 : Fin 1) cc))
            (v9 (ix2 (0 : Fin 1) cc)
              + Ideal.exp (Cert.Yolo.zero
                  - v1 (ix4 (⟨q.val / 76, by omega⟩ : Fin 4) (⟨q.val % 76, by omega⟩ : Fin 76) bb cc)))
          + v12 (ix2 (0 : Fin 1) cc) * Cert.Yolo.off (q.val % 76)
          + v15 (ix2 (0 : Fin 1) cc) * Cert.Yolo.off (4 * (i 0).val + q.val / 76) := by
  unfold k0_pay1
  refine (merge_cast_apply _ _ bb q cc).trans ?_
  refine (transpose_block_apply _ _ bb _ _ cc).trans ?_
  refine (addf_apply _ _ _).trans ?_
  refine congrArg₂ (· + ·) ?_ ?_
  · refine (addf_apply _ _ _).trans ?_
    refine congrArg₂ (· + ·) ?_ ?_
    · refine (divf_apply _ _ _).trans ?_
      refine congrArg₂ Ideal.div ?_ ?_
      · refine (bcast_row_block_apply _ _ _ _ bb cc).trans ?_
        exact row_cast_apply v6 _ _ 0 0 0 cc
      · refine (addf_apply _ _ _).trans ?_
        refine congrArg₂ (· + ·) ?_ ?_
        · refine (bcast_row_block_apply _ _ _ _ bb cc).trans ?_
          exact row_cast_apply v9 _ _ 0 0 0 cc
        · show Ideal.exp (Cert.Yolo.zero - shapeCast S4x76x16x255 v1 _ _) = _
          rw [shapeCast_self]
    · refine (bcast_col_block_apply _ _ _ _ bb cc).trans ?_
      refine (mulf_apply _ _ _).trans ?_
      refine congrArg₂ (· * ·) ?_ ?_
      · refine (bcast_row_col_apply _ _ 0 _ 0 cc).trans ?_
        exact row_cast_apply v12 _ _ 0 0 0 cc
      · refine (bcast_col_chan_apply _ _ 0 _ 0 cc).trans ?_
        refine (sitofp_apply _ _).trans ?_
        rw [iota_single_apply]
        rfl
  · refine (bcast_rowidx_block_apply _ _ _ _ bb cc).trans ?_
    refine (mulf_apply _ _ _).trans ?_
    refine congrArg₂ (· * ·) ?_ ?_
    · refine (bcast_row_rows_apply _ _ _ 0 0 cc).trans ?_
      exact row_cast_apply v15 _ _ 0 0 0 cc
    · refine (bcast_rows_chan_apply _ _ _ 0 0 cc).trans ?_
      refine (sitofp_apply _ _).trans ?_
      show (((IntOp.addi (Scalar.muli (BitVec.ofNat 32 (i 0).val) 4#32) (iota .tc S4x1x1x1 32 [0] _ _)).toInt : ℝ) : EReal) = _
      rw [iota_single_apply]
      show ((((BitVec.ofNat 32 (i 0).val * 4#32 + BitVec.ofNat 32 (q.val / 76)).toInt : ℤ) : ℝ) : EReal) = _
      rw [row_word (i 0).val (q.val / 76) (i 0).isLt (by omega)]
      rfl

end Cert.KernelIdeal.KValue

end
-- ==== Proof.KHost.lean ====
/-
  What the host operations before the region leave in the two arrays the region reads.

  Before the region the program transposes the input map [16, 255, 76, 76] to [76, 76, 16, 255] (grid row, grid
  column, image, channel), computes the stride as the floored quotient of the input dimension by 76, converted to a
  float, and stacks four rows of 255 per-channel coefficients: the multiplier
  `L1 · (1 − L0) + s · L0`, the adder `L2`, the column coefficient `L3 · s` and the row coefficient `L4 · s`, with
  `L0 … L4` the program's five literal tables and `s` the stride. Both are read here at an index, from any contents
  the run is launched with.
-/
import proofs.«155525_g56642028700200_fold_wed_c4_437_22_alg».proof.Proof.Gen.KernelIdeal.Launch
import proofs.«155525_g56642028700200_fold_wed_c4_437_22_alg».proof.Proof.Spec
import Idealize.ShloMosaic.Lib.ValueIdx
import Idealize.ShloMosaic.Lib.ValueLayout
import Idealize.ShloMosaic.Lib.Pipeline.Value

noncomputable section

namespace Cert.KernelIdeal.KValue

open Idealize.ShloMosaic Idealize.ShloMosaic.TcCoe Idealize.ShloMosaic.ValueIdx Cert.KernelIdeal Cert.KernelIdeal.Gen

/-- The arrays as the region finds them, from any launch contents `W`: the three stretches of host operations
    applied in order. -/
abbrev pre (W : Valuation τ sig (Elt Ideal)) : Valuation τ sig (Elt Ideal) :=
  StableHlo.after (List.flatten [hostOps0 (F := Ideal), hostOps0_1, hostOps0_2]) W

/-! ## The transposed input -/

/-- The region's first array is the input map transposed by [2, 3, 0, 1]. -/
theorem pre_v0 (W : Valuation τ sig (Elt Ideal)) :
    (pre W main_v0 : S76x76x16x255.Idx → EReal)
      = transpose S76x76x16x255 [2, 3, 0, 1] (W main_arg0 : S16x255x76x76.Idx → EReal)
          transposes_S16x255x76x76_S76x76x16x255_2_3_0_1 := by
  dsimp only [pre]
  simp only [hostOps0, hostOps0_1, hostOps0_2, List.flatten_cons, List.flatten_nil, List.append_nil, List.cons_append,
    List.nil_append]
  after_results

/-- The transpose [2, 3, 0, 1] puts (image, channel, grid row, grid column) at (grid row, grid column, image,
    channel). -/
theorem transpose_input_apply {α : Type} (x : S16x255x76x76.Idx → α)
    (h : S16x255x76x76.Transposes [2, 3, 0, 1] S76x76x16x255) (gy gx : Fin 76) (b : Fin 16) (ch : Fin 255) :
    transpose S76x76x16x255 [2, 3, 0, 1] x h (ix4 gy gx b ch) = x (ix4 b ch gy gx) :=
  transpose_apply _ x h _ _ fun c => match c with | ⟨0, _⟩ => rfl | ⟨1, _⟩ => rfl | ⟨2, _⟩ => rfl | ⟨3, _⟩ => rfl

/-- **The region's first array at (grid row, grid column, image, channel)** is the input map at (image, channel, grid
    row, grid column). -/
theorem pre_v0_apply (W : Valuation τ sig (Elt Ideal)) (gy gx : Fin 76) (b : Fin 16) (ch : Fin 255) :
    (pre W main_v0 : S76x76x16x255.Idx → EReal) (ix4 gy gx b ch)
      = (W main_arg0 : S16x255x76x76.Idx → EReal) (ix4 b ch gy gx) := by
  rw [pre_v0]
  exact transpose_input_apply _ _ gy gx b ch

/-! ## The coefficient table -/

/-- A literal table of 255 words as a row of floats. -/
def cst (L : Fin 255 → BitVec 32) : FVec Ideal S255 .f32 := fun i => FloatOps.ofBits .f32 (L (S255.rowMajor i))
/-- The stride, converted to a float, on every channel. -/
def strideRow (a : IVec S_ 32) : FVec Ideal S255 .f32 :=
  broadcastInDim S255 ![] bcast_S_S255 (sitofp .f32 (Cert.Yolo.strideI a))
/-- The float one on every channel. -/
def oneRow : FVec Ideal S255 .f32 := broadcastInDim S255 ![] bcast_S_S255 (constant (F := Ideal) S_ .f32 0x3F800000#32)
/-- The multiplier row `L1 · (1 − L0) + s · L0`. -/
def row0 (a : IVec S_ 32) : FVec Ideal S255 .f32 :=
  addf (mulf (cst lit1) (subf oneRow (cst lit0))) (mulf (strideRow a) (cst lit0))
/-- The column-coefficient row `L3 · s`. -/
def row2 (a : IVec S_ 32) : FVec Ideal S255 .f32 := mulf (cst lit3) (strideRow a)
/-- The row-coefficient row `L4 · s`. -/
def row3 (a : IVec S_ 32) : FVec Ideal S255 .f32 := mulf (cst lit4) (strideRow a)
/-- The four rows stacked. -/
def table (a : IVec S_ 32) : S4x255.Idx → EReal :=
  concatenate S4x255 0
    [⟨S1x255, broadcastInDim S1x255 ![1] bcast_S255_S1x255_1 (row0 a)⟩,
     ⟨S1x255, broadcastInDim S1x255 ![1] bcast_S255_S1x255_1 (cst lit2)⟩,
     ⟨S1x255, broadcastInDim S1x255 ![1] bcast_S255_S1x255_1 (row2 a)⟩,
     ⟨S1x255, broadcastInDim S1x255 ![1] bcast_S255_S1x255_1 (row3 a)⟩]
    concatenates_S1x255_S1x255_S1x255_S1x255_S4x255_d0

open Idealize.ShloMosaic.StableHlo in
/-- The region's second array is that table of the input-dimension word. -/
theorem pre_v17 (W : Valuation τ sig (Elt Ideal)) :
    (pre W main_v17 : S4x255.Idx → EReal) = table (W main_arg1 : S_.Idx → BitVec 32) := by
  dsimp only [pre]
  simp only [hostOps0, hostOps0_1, hostOps0_2, List.flatten_cons, List.flatten_nil, List.append_nil, List.cons_append,
    List.nil_append]
  after_results
  rfl

/-! ## The table read at an index -/

/-- A literal table read at channel `ch` is the float its word there encodes. -/
theorem cst_apply (L : Fin 255 → BitVec 32) (ch : Fin 255) : cst L (ix1 ch) = Ideal.ofBits .f32 (L ch) := by
  unfold cst
  have e : S255.rowMajor (ix1 ch) = ch := Fin.ext (Shape.rowMajor_val_one _)
  rw [e]
  rfl

/-- The stride row reads the stride on every channel. -/
theorem strideRow_apply (a : IVec S_ 32) (ch : Fin 255) : strideRow a (ix1 ch) = Cert.Yolo.stride a := by
  unfold strideRow
  refine (broadcastInDim_apply _ _ _ (ix1 ch) ix0 (fun b => b.elim0)).trans ?_
  rfl

/-- The row of ones reads the float one on every channel. -/
theorem oneRow_apply (ch : Fin 255) : oneRow (ix1 ch) = Cert.Yolo.one := by
  unfold oneRow
  refine (broadcastInDim_apply _ _ _ (ix1 ch) ix0 (fun b => b.elim0)).trans ?_
  rfl

/-- A row of 255 as a [1, 255] array reads the row. -/
theorem asRow_apply {α : Type} (x : S255.Idx → α) (h : S255.BroadcastsInDim S1x255 (![1] : Fin 1 → Fin S1x255.rank))
    (u : Fin 1) (ch : Fin 255) : broadcastInDim S1x255 ![1] h x (ix2 u ch) = x (ix1 ch) :=
  broadcastInDim_apply _ h x _ _ fun b => by
    match b with
    | ⟨0, _⟩ => rfl

section Stack
variable {α : Type} (x0 x1 x2 x3 : S1x255.Idx → α)
  (h : Shape.Concatenates [S1x255, S1x255, S1x255, S1x255] S4x255 0) (ch : Fin 255)

/-- Four [1, 255] rows stacked along axis 0 read, at row `k`, the `k`-th of them. -/
theorem stack4_row0 :
    concatenate S4x255 0 [⟨S1x255, x0⟩, ⟨S1x255, x1⟩, ⟨S1x255, x2⟩, ⟨S1x255, x3⟩] h (ix2 (0 : Fin 4) ch)
      = x0 (ix2 (0 : Fin 1) ch) :=
  concatenate_apply_piece (0 : Fin S4x255.rank) [⟨S1x255, x0⟩, ⟨S1x255, x1⟩, ⟨S1x255, x2⟩, ⟨S1x255, x3⟩] h _ 0
    (show (0 : ℕ) < 4 by omega) S1x255 x0 rfl rfl 0 rfl (ix2 (0 : Fin 1) ch)
    (fun b hb => by
      match b with
      | ⟨0, _⟩ => exact absurd rfl hb
      | ⟨1, _⟩ => rfl) rfl
theorem stack4_row1 :
    concatenate S4x255 0 [⟨S1x255, x0⟩, ⟨S1x255, x1⟩, ⟨S1x255, x2⟩, ⟨S1x255, x3⟩] h (ix2 (1 : Fin 4) ch)
      = x1 (ix2 (0 : Fin 1) ch) :=
  concatenate_apply_piece (0 : Fin S4x255.rank) [⟨S1x255, x0⟩, ⟨S1x255, x1⟩, ⟨S1x255, x2⟩, ⟨S1x255, x3⟩] h _ 1
    (show (1 : ℕ) < 4 by omega) S1x255 x1 rfl rfl 1 rfl (ix2 (0 : Fin 1) ch)
    (fun b hb => by
      match b with
      | ⟨0, _⟩ => exact absurd rfl hb
      | ⟨1, _⟩ => rfl) rfl
theorem stack4_row2 :
    concatenate S4x255 0 [⟨S1x255, x0⟩, ⟨S1x255, x1⟩, ⟨S1x255, x2⟩, ⟨S1x255, x3⟩] h (ix2 (2 : Fin 4) ch)
      = x2 (ix2 (0 : Fin 1) ch) :=
  concatenate_apply_piece (0 : Fin S4x255.rank) [⟨S1x255, x0⟩, ⟨S1x255, x1⟩, ⟨S1x255, x2⟩, ⟨S1x255, x3⟩] h _ 2
    (show (2 : ℕ) < 4 by omega) S1x255 x2 rfl rfl 2 rfl (ix2 (0 : Fin 1) ch)
    (fun b hb => by
      match b with
      | ⟨0, _⟩ => exact absurd rfl hb
      | ⟨1, _⟩ => rfl) rfl
theorem stack4_row3 :
    concatenate S4x255 0 [⟨S1x255, x0⟩, ⟨S1x255, x1⟩, ⟨S1x255, x2⟩, ⟨S1x255, x3⟩] h (ix2 (3 : Fin 4) ch)
      = x3 (ix2 (0 : Fin 1) ch) :=
  concatenate_apply_piece (0 : Fin S4x255.rank) [⟨S1x255, x0⟩, ⟨S1x255, x1⟩, ⟨S1x255, x2⟩, ⟨S1x255, x3⟩] h _ 3
    (show (3 : ℕ) < 4 by omega) S1x255 x3 rfl rfl 3 rfl (ix2 (0 : Fin 1) ch)
    (fun b hb => by
      match b with
      | ⟨0, _⟩ => exact absurd rfl hb
      | ⟨1, _⟩ => rfl) rfl

end Stack

/-- **Row 0 of the table, the multiplier**: `L1 · (1 − L0) + s · L0`. -/
theorem table_row0 (a : IVec S_ 32) (ch : Fin 255) :
    table a (ix2 (0 : Fin 4) ch)
      = Ideal.ofBits .f32 (lit1 ch) * (Cert.Yolo.one - Ideal.ofBits .f32 (lit0 ch))
          + Cert.Yolo.stride a * Ideal.ofBits .f32 (lit0 ch) := by
  unfold table
  refine (stack4_row0 _ _ _ _ _ ch).trans ?_
  refine (asRow_apply _ _ 0 ch).trans ?_
  unfold row0
  refine (addf_apply _ _ _).trans ?_
  refine congrArg₂ (· + ·) ?_ ?_
  · refine (mulf_apply _ _ _).trans ?_
    refine congrArg₂ (· * ·) (cst_apply lit1 ch) ?_
    refine (subf_apply _ _ _).trans ?_
    exact congrArg₂ (· - ·) (oneRow_apply ch) (cst_apply lit0 ch)
  · refine (mulf_apply _ _ _).trans ?_
    exact congrArg₂ (· * ·) (strideRow_apply a ch) (cst_apply lit0 ch)

/-- **Row 1, the adder**: `L2`. -/
theorem table_row1 (a : IVec S_ 32) (ch : Fin 255) :
    table a (ix2 (1 : Fin 4) ch) = Ideal.ofBits .f32 (lit2 ch) := by
  unfold table
  refine (stack4_row1 _ _ _ _ _ ch).trans ?_
  refine (asRow_apply _ _ 0 ch).trans ?_
  exact cst_apply lit2 ch

/-- **Row 2, the column coefficient**: `L3 · s`. -/
theorem table_row2 (a : IVec S_ 32) (ch : Fin 255) :
    table a (ix2 (2 : Fin 4) ch) = Ideal.ofBits .f32 (lit3 ch) * Cert.Yolo.stride a := by
  unfold table
  refine (stack4_row2 _ _ _ _ _ ch).trans ?_
  refine (asRow_apply _ _ 0 ch).trans ?_
  unfold row2
  refine (mulf_apply _ _ _).trans ?_
  exact congrArg₂ (· * ·) (cst_apply lit3 ch) (strideRow_apply a ch)

/-- **Row 3, the row coefficient**: `L4 · s`. -/
theorem table_row3 (a : IVec S_ 32) (ch : Fin 255) :
    table a (ix2 (3 : Fin 4) ch) = Ideal.ofBits .f32 (lit4 ch) * Cert.Yolo.stride a := by
  unfold table
  refine (stack4_row3 _ _ _ _ _ ch).trans ?_
  refine (asRow_apply _ _ 0 ch).trans ?_
  unfold row3
  refine (mulf_apply _ _ _).trans ?_
  exact congrArg₂ (· * ·) (cst_apply lit4 ch) (strideRow_apply a ch)

/-! ## The region's second array at an index -/

/-- **Entry (0, ch)**: the multiplier `L1 · (1 − L0) + s · L0`, `s` the stride of the launched input dimension. -/
theorem pre_v17_row0 (W : Valuation τ sig (Elt Ideal)) (ch : Fin 255) :
    (pre W main_v17 : S4x255.Idx → EReal) (ix2 (0 : Fin 4) ch)
      = Ideal.ofBits .f32 (lit1 ch) * (Cert.Yolo.one - Ideal.ofBits .f32 (lit0 ch))
          + Cert.Yolo.stride (W main_arg1 : S_.Idx → BitVec 32) * Ideal.ofBits .f32 (lit0 ch) := by
  rw [pre_v17]
  exact table_row0 _ ch
/-- **Entry (1, ch)**: the adder `L2`. -/
theorem pre_v17_row1 (W : Valuation τ sig (Elt Ideal)) (ch : Fin 255) :
    (pre W main_v17 : S4x255.Idx → EReal) (ix2 (1 : Fin 4) ch) = Ideal.ofBits .f32 (lit2 ch) := by
  rw [pre_v17]
  exact table_row1 _ ch
/-- **Entry (2, ch)**: the column coefficient `L3 · s`. -/
theorem pre_v17_row2 (W : Valuation τ sig (Elt Ideal)) (ch : Fin 255) :
    (pre W main_v17 : S4x255.Idx → EReal) (ix2 (2 : Fin 4) ch)
      = Ideal.ofBits .f32 (lit3 ch) * Cert.Yolo.stride (W main_arg1 : S_.Idx → BitVec 32) := by
  rw [pre_v17]
  exact table_row2 _ ch
/-- **Entry (3, ch)**: the row coefficient `L4 · s`. -/
theorem pre_v17_row3 (W : Valuation τ sig (Elt Ideal)) (ch : Fin 255) :
    (pre W main_v17 : S4x255.Idx → EReal) (ix2 (3 : Fin 4) ch)
      = Ideal.ofBits .f32 (lit4 ch) * Cert.Yolo.stride (W main_arg1 : S_.Idx → BitVec 32) := by
  rw [pre_v17]
  exact table_row3 _ ch

/-! ## The arguments are not written -/

/-- No host operation before the region writes the input map. -/
theorem pre_arg0 (W : Valuation τ sig (Elt Ideal)) : pre W main_arg0 = W main_arg0 :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- Nor the input dimension. -/
theorem pre_arg1 (W : Valuation τ sig (Elt Ideal)) : pre W main_arg1 = W main_arg1 :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

end Cert.KernelIdeal.KValue

end
-- ==== Proof.KFinal.lean ====
/-
  The idealized kernel program's result, index by index.

  The region runs over 19 grid points. Point `t` reads grid rows `4 t … 4 t + 3` of the transposed input map and the whole
  table of coefficients, and writes back cells `304 t … 304 t + 303` of a [16, 5776, 255] array (image, cell, channel). What
  it writes is the block of ONE array, `kOut`: at cell `p = grid row · 76 + column`,
      rm / (adder + e^(0 − v)) + cx · column + cy · grid row,    v = x[image, channel, grid row, column],
  the four coefficients the table's rows at the channel. The 19 blocks tile the array, so the array ends as `kOut`; the
  reshape after the region reads it as [16, 17328, 85], entry `(b, r, t)` from `(b, r / 3, (r % 3) · 85 + t)`, which is the
  specification's table form.
-/
import proofs.«155525_g56642028700200_fold_wed_c4_437_22_alg».proof.Proof.FrameKI
import proofs.«155525_g56642028700200_fold_wed_c4_437_22_alg».proof.Proof.KPayload
import proofs.«155525_g56642028700200_fold_wed_c4_437_22_alg».proof.Proof.KHost
import proofs.«155525_g56642028700200_fold_wed_c4_437_22_alg».proof.Proof.Spec
import Idealize.ShloMosaic.Lib.Pipeline.Value

noncomputable section

namespace Cert.KernelIdeal.KValue

open Cert.KernelIdeal Cert.KernelIdeal.Gen Cert.KernelIdeal.HandFrame
open Idealize.ShloMosaic Idealize.ShloMosaic.TcCoe Idealize.ShloMosaic.ValueIdx Idealize.SL.Sem
open Idealize.ShloMosaic.Pipeline (Dat)

/-! ## The body's stored value from the two blocks, at an index -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- A [1, 255] rectangle of the coefficient table at row `k` reads row `k`. -/
theorem ld_row (x1 : Vec Ideal S4x255 .f32) (off : Fin 2 → Nat) (inb : ∀ a, off a + S1x255.size a ≤ S4x255.size a)
    (k : Fin 4) (h0 : off 0 = k.val) (h1 : off 1 = 0) (u : Fin 1) (cc : Fin 255) :
    View.ld x1 (Rect.unit (s := S4x255) off S1x255.size inb) (ix2 u cc) = x1 (ix2 k cc) := by
  show x1 ((Rect.unit (s := S4x255) off S1x255.size inb).emb (ix2 u cc)) = _
  refine congrArg x1 (funext fun a => Fin.ext ?_)
  match a with
  | ⟨0, _⟩ =>
    show off 0 + 1 * u.val = k.val
    omega
  | ⟨1, _⟩ =>
    show off 1 + 1 * cc.val = cc.val
    omega

/-- The buffer the body leaves, at `(image, q, channel)`, from the input block and the coefficient table. -/
theorem out_apply (i : grid0.Coords) (x0 : Vec Ideal S4x76x16x255 .f32) (x1 : Vec Ideal S4x255 .f32)
    (bb : Fin 16) (q : Fin 304) (cc : Fin 255) :
    out0_2 (F := Ideal) i x0 x1 (ix3 bb q cc)
      = Ideal.div (x1 (ix2 (0 : Fin 4) cc))
            (x1 (ix2 (1 : Fin 4) cc)
              + Ideal.exp (Cert.Yolo.zero
                  - x0 (ix4 (⟨q.val / 76, by omega⟩ : Fin 4) (⟨q.val % 76, by omega⟩ : Fin 76) bb cc)))
          + x1 (ix2 (2 : Fin 4) cc) * Cert.Yolo.off (q.val % 76)
          + x1 (ix2 (3 : Fin 4) cc) * Cert.Yolo.off (4 * (i 0).val + q.val / 76) := by
  unfold out0_2
  rw [View.canon_unit_zero hz3]
  refine (k0_pay1_apply i _ _ _ _ _ bb q cc).trans ?_
  rw [View.ld_unit_zero (S := S4x76x16x255) hz4]
  rw [ld_row x1 _ _ 0 rfl rfl, ld_row x1 _ _ 1 rfl rfl, ld_row x1 _ _ 2 rfl rfl, ld_row x1 _ _ 3 rfl rfl]

/-! ## The two input blocks as the launched arrays -/

variable (m : (ℓ : Loc nD τ sig) → Buf (Elt Ideal) ℓ) (ρ : Dev nD → PrngReg)

/-- The printed index maps over the 19 grid points: the grid position is the point; the input block moves along grid
    rows, the coefficient table stays, the output block moves along the cells. -/
theorem idx_facts : ∀ t : Fin cfg0.N,
    ((grid0.coords t) 0).val = t.val
    ∧ win0_0.index t (0 : Fin 4) = t.val ∧ win0_0.index t (1 : Fin 4) = 0 ∧ win0_0.index t (2 : Fin 4) = 0
    ∧ win0_0.index t (3 : Fin 4) = 0
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0 :=
  (by decide +kernel : ∀ t : Fin grid0.N, _)

/-- The input block at point `t`, at (local row, column, image, channel), is the launched input map at (image,
    channel, grid row `4 t + local row`, column). -/
theorem iblk0_apply (c : Dev nD) (t : Fin cfg0.N) (r : Fin 4) (g : Fin 76) (b : Fin 16) (ch : Fin 255) :
    (iblk m c 0 t : Vec Ideal S4x76x16x255 .f32) (ix4 r g b ch)
      = (m ((c : Thread nD τ).loc main_arg0) : S16x255x76x76.Idx → EReal)
          (ix4 b ch (⟨4 * t.val + r.val, by have := t.isLt; have hN : cfg0.N = 19 := N_0; omega⟩ : Fin 76) g) := by
  obtain ⟨-, e0, e1, e2, e3, -⟩ := idx_facts t
  unfold iblk
  rw [View.read_apply]
  show V m c main_v0 (((cfg0.win 0).blk t).view.emb (ix4 r g b ch)) = _
  have hemb : ((cfg0.win 0).blk t).view.emb (ix4 r g b ch)
      = ix4 (⟨4 * t.val + r.val, by have := t.isLt; have hN : cfg0.N = 19 := N_0; omega⟩ : Fin 76) g b ch := by
    funext a; apply Fin.ext
    match a with
    | ⟨0, _⟩ => show win0_0.index t (0 : Fin 4) * 4 + 1 * r.val = 4 * t.val + r.val; omega
    | ⟨1, _⟩ => show win0_0.index t (1 : Fin 4) * 76 + 1 * g.val = g.val; omega
    | ⟨2, _⟩ => show win0_0.index t (2 : Fin 4) * 16 + 1 * b.val = b.val; omega
    | ⟨3, _⟩ => show win0_0.index t (3 : Fin 4) * 255 + 1 * ch.val = ch.val; omega
  rw [hemb]
  exact pre_v0_apply (fun b => m (c, b)) _ g b ch

/-- The coefficient block at any point is the table of the launched input dimension. -/
theorem iblk1_apply (c : Dev nD) (t : Fin cfg0.N) (k : Fin 4) (ch : Fin 255) :
    (iblk m c 1 t : Vec Ideal S4x255 .f32) (ix2 k ch)
      = table (m ((c : Thread nD τ).loc main_arg1) : S_.Idx → BitVec 32) (ix2 k ch) := by
  obtain ⟨-, -, -, -, -, f0, f1, -⟩ := idx_facts t
  unfold iblk
  rw [View.read_apply]
  show V m c main_v17 (((cfg0.win 1).blk t).view.emb (ix2 k ch)) = _
  have hemb : ((cfg0.win 1).blk t).view.emb (ix2 k ch) = ix2 k ch := by
    funext a; apply Fin.ext
    match a with
    | ⟨0, _⟩ => show win0_1.index t (0 : Fin 2) * 4 + 1 * k.val = k.val; omega
    | ⟨1, _⟩ => show win0_1.index t (1 : Fin 2) * 255 + 1 * ch.val = ch.val; omega
  rw [hemb]
  exact congrFun (pre_v17 (fun b => m (c, b))) (ix2 k ch)

/-! ## The region's result as one function of the launched arrays -/

/-- The region's result at (image, cell, channel), cell `p` at grid row `p / 76` and column `p % 76`: the multiplier
    over the adder plus `e^(0 − v)`, plus the column coefficient times the column, plus the row coefficient times the
    grid row; `v` the input at (image, channel, grid row, column), the coefficients the table's rows. -/
def kOutAt (X : S16x255x76x76.Idx → EReal) (a : IVec S_ 32) (b : Fin 16) (p : Fin 5776) (ch : Fin 255) : EReal :=
  Ideal.div (table a (ix2 (0 : Fin 4) ch))
      (table a (ix2 (1 : Fin 4) ch)
        + Ideal.exp (Cert.Yolo.zero
            - X (ix4 b ch (⟨p.val / 76, by omega⟩ : Fin 76) (⟨p.val % 76, by omega⟩ : Fin 76))))
    + table a (ix2 (2 : Fin 4) ch) * Cert.Yolo.off (p.val % 76)
    + table a (ix2 (3 : Fin 4) ch) * Cert.Yolo.off (p.val / 76)

/-- The same as an array [16, 5776, 255]. -/
def kOut (X : S16x255x76x76.Idx → EReal) (a : IVec S_ 32) : S16x5776x255.Idx → EReal :=
  fun j => kOutAt X a (j 0) (j 1) (j 2)

/-- **What point `t` writes back** is block `t` — cells `304 t … 304 t + 303` — of that one array. -/
theorem flushed_eq (c : Dev nD) (t : Fin cfg0.N) :
    (dats m 0 c).flushed 2 t
      = ((cfg0.win 2).blk t).view.read (Elt Ideal)
          (kOut (m ((c : Thread nD τ).loc main_arg0)) (m ((c : Thread nD τ).loc main_arg1))) := by
  have hN : cfg0.N = 19 := N_0
  have ht : t.val < 19 := by have := t.isLt; omega
  obtain ⟨ei, -, -, -, -, -, -, g0, g1, g2⟩ := idx_facts t
  show (cfg0.win 2).cut (grid0.coords t) ((dats m 0 c).after 2 t) = _
  rw [after0_2]
  funext j
  obtain ⟨bb, q, cc, rfl⟩ : ∃ (bb : Fin 16) (q : Fin 304) (cc : Fin 255), j = ix3 bb q cc := ⟨j 0, j 1, j 2, eq_ix3 j⟩
  rw [View.read_apply]
  show out0_2 (grid0.coords t) (iblk m c 0 t) (iblk m c 1 t) (ix3 bb q cc)
    = kOut (m ((c : Thread nD τ).loc main_arg0)) (m ((c : Thread nD τ).loc main_arg1))
        (((cfg0.win 2).blk t).view.emb (ix3 bb q cc))
  have hemb : ((cfg0.win 2).blk t).view.emb (ix3 bb q cc)
      = ix3 bb (⟨304 * t.val + q.val, by omega⟩ : Fin 5776) cc := by
    funext a; apply Fin.ext
    match a with
    | ⟨0, _⟩ => show win0_2.index t (0 : Fin 3) * 16 + 1 * bb.val = bb.val; omega
    | ⟨1, _⟩ => show win0_2.index t (1 : Fin 3) * 304 + 1 * q.val = 304 * t.val + q.val; omega
    | ⟨2, _⟩ => show win0_2.index t (2 : Fin 3) * 255 + 1 * cc.val = cc.val; omega
  rw [hemb]
  refine (out_apply (grid0.coords t) (iblk m c 0 t) (iblk m c 1 t) bb q cc).trans ?_
  rw [iblk1_apply m c t 0 cc, iblk1_apply m c t 1 cc, iblk1_apply m c t 2 cc, iblk1_apply m c t 3 cc,
    iblk0_apply m c t _ _ bb cc]
  show _ = kOutAt _ _ bb (⟨304 * t.val + q.val, by omega⟩ : Fin 5776) cc
  unfold kOutAt
  have hq1 : (304 * t.val + q.val) / 76 = 4 * t.val + q.val / 76 := by omega
  have hq2 : (304 * t.val + q.val) % 76 = q.val % 76 := by omega
  have hi : ((grid0.coords t) 0).val = t.val := ei
  simp only [hq1, hq2, hi]

/-- An index of the result array is in point `t`'s block iff each coordinate is in the block's range on its axis. -/
theorem mem_blk (t : Fin cfg0.N) (i : S16x5776x255.Idx) :
    i ∈ ((cfg0.win 2).blk t).view.set
      ↔ ∀ a : Fin 3, win0_2.index t a * S16x304x255.size a ≤ (i a).val
          ∧ (i a).val < win0_2.index t a * S16x304x255.size a + S16x304x255.size a := by
  show i ∈ ((View.whole main_v18).slice (win0_2.rect t)).set ↔ _
  rw [View.set_slice_whole, Rect.mem_set_unit]
  exact Iff.rfl

/-- Every cell is in the block of the point `cell / 304`. -/
theorem cover (i : S16x5776x255.Idx) :
    ∃ t : Fin cfg0.N, (cfg0.win 2).flush t = true ∧ i ∈ ((cfg0.win 2).blk t).view.set := by
  have hN : cfg0.N = 19 := N_0
  have h0 : (i 0).val < 16 := (i 0).isLt
  have h1 : (i 1).val < 5776 := (i 1).isLt
  have h2 : (i 2).val < 255 := (i 2).isLt
  let t : Fin cfg0.N := ⟨(i 1).val / 304, by omega⟩
  obtain ⟨-, -, -, -, -, -, -, g0, g1, g2⟩ := idx_facts t
  have g1' : win0_2.index t (1 : Fin 3) = (i 1).val / 304 := g1
  refine ⟨t, flush0_2 t, ?_⟩
  rw [mem_blk]
  intro a
  match a with
  | ⟨0, _⟩ =>
    show win0_2.index t (0 : Fin 3) * 16 ≤ (i 0).val ∧ (i 0).val < win0_2.index t (0 : Fin 3) * 16 + 16
    omega
  | ⟨1, _⟩ =>
    show win0_2.index t (1 : Fin 3) * 304 ≤ (i 1).val ∧ (i 1).val < win0_2.index t (1 : Fin 3) * 304 + 304
    omega
  | ⟨2, _⟩ =>
    show win0_2.index t (2 : Fin 3) * 255 ≤ (i 2).val ∧ (i 2).val < win0_2.index t (2 : Fin 3) * 255 + 255
    omega

/-- **The region's result array after the run** is that one array. -/
theorem final (c : Dev nD) :
    (dats m 0 c).arrAt 2 cfg0.N
      = kOut (m ((c : Thread nD τ).loc main_arg0)) (m ((c : Thread nD τ).loc main_arg1)) :=
  (dats m 0 c).arrAt_eq_of_cover 2 _ (fun t _ => flushed_eq m c t) cover

/-! ## Through the reshape after the region -/

/-- The reshape [16, 5776, 255] → [16, 17328, 85] splits each cell's 255 channels into 3 anchors of 85 attributes: entry
    `(b, r, t)` is the operand's at `(b, r / 3, (r % 3) · 85 + t)`. -/
theorem split_cast_apply {α : Type} (x : S16x5776x255.Idx → α) (h : S16x5776x255.ShapeCasts S16x17328x85)
    (b : Fin 16) (r : Fin 17328) (t : Fin 85) :
    shapeCast S16x17328x85 x h (ix3 b r t)
      = x (ix3 b (⟨r.val / 3, by omega⟩ : Fin 5776) (⟨r.val % 3 * 85 + t.val, by omega⟩ : Fin 255)) :=
  shapeCast_apply x h _ _ (by
    rw [Shape.rowMajor_val_three, Shape.rowMajor_val_three]
    show (b.val * 5776 + r.val / 3) * 255 + (r.val % 3 * 85 + t.val) = (b.val * 17328 + r.val) * 85 + t.val
    omega)

/-- The region's result at `(b, r / 3, (r % 3) · 85 + t)` is the specification's table form at `(b, r, t)`. -/
theorem kOutAt_eq_viaTables (X : S16x255x76x76.Idx → EReal) (a : IVec S_ 32) (b : Fin 16) (r : Fin 17328) (t : Fin 85) :
    kOutAt X a b (⟨r.val / 3, by omega⟩ : Fin 5776) (⟨r.val % 3 * 85 + t.val, by omega⟩ : Fin 255)
      = Cert.Yolo.viaTables lit0 lit1 lit2 lit3 lit4 X (Cert.Yolo.stride a) b r t := by
  unfold kOutAt Cert.Yolo.viaTables Cert.Yolo.inp
  rw [table_row0, table_row1, table_row2, table_row3]
  rfl

/-- What the program's result buffer holds after the reshape that follows the region. -/
theorem tail_eq (c : Dev nD) :
    (Pipeline.afterTail₀ cfgs (dats m) 0 (V0 m) [hostOps1] c main_v19 : S16x17328x85.Idx → EReal)
      = shapeCast S16x17328x85 ((dats m 0 c).arrAt 2 cfg0.N : S16x5776x255.Idx → EReal)
          shapeCasts_S16x5776x255_S16x17328x85 := by
  unfold Pipeline.afterTail₀
  show StableHlo.after hostOps1 _ (Proc.devRef .tc main_v19) = _
  after_results
  have e : Pipeline.withArrays (cfgs 0).spec c (V0 m c) (fun w => (dats m 0 c).arrAt w (cfgs 0).N)
        (Proc.devRef .tc main_v18) = (dats m 0 c).arrAt 2 cfg0.N :=
    Pipeline.withArrays_arr spec0 launch0.win.arr_inj c _ _ 2
  rw [e]
  rfl

/-! ## The run, read -/

/-- **The idealized kernel program's run**: every weakly fair execution terminates, the result buffer at the
    specification's table form of the launched input map and the stride of the launched input dimension, index by
    index, and the two arguments unchanged. -/
theorem run : θ_run defs (onTc (τ := τ) (main (F := Ideal))) ⟨m, fun _ => 0, ρ⟩ fun r => ∀ c : Dev nD,
      r.2.mem ((c.tc : Thread nD τ).loc main_v19)
        = (fun j => Cert.Yolo.viaTables lit0 lit1 lit2 lit3 lit4 (m ((c.tc : Thread nD τ).loc main_arg0))
            (Cert.Yolo.stride (m ((c.tc : Thread nD τ).loc main_arg1))) (j 0) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v19 (Pipeline.mem_restRefs_of main_v19 (by decide) (by decide))).trans (by
        rw [tail_eq m c, final m c]
        funext j
        obtain ⟨b, r', t, rfl⟩ : ∃ (b : Fin 16) (r' : Fin 17328) (t : Fin 85), j = ix3 b r' t :=
          ⟨j 0, j 1, j 2, eq_ix3 j⟩
        refine (split_cast_apply _ _ b r' t).trans ?_
        exact kOutAt_eq_viaTables _ _ b r' t),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-- info: 'Cert.KernelIdeal.KValue.run' depends on axioms: [propext, Classical.choice, Quot.sound] -/
#guard_msgs in #print axioms run

end Cert.KernelIdeal.KValue

end
-- ==== Proof.RefTerm.lean ====
/-
  The reference program's result as ONE function of its two arguments: a `let` per operation of @main, in order,
  the two inlined module-local functions (the floor quotient and its select) included. Each line applies exactly
  the function the operation's line of the printed program applies, with the same stated facts. The chain is cut
  into four consecutive parts, each taking the values still live at its head and ending in the call of the next:
  unfolding the parts gives back the one chain.
-/
import proofs.«155525_g56642028700200_fold_wed_c4_437_22_alg».proof.ReferenceIdeal

noncomputable section

namespace Cert.ReferenceIdeal.RefTerm

open Cert.ReferenceIdeal Idealize.ShloMosaic

variable {F : FTy → Type} [FloatOps F] [Cert.ReferenceIdeal.Facts]
open Cert.ReferenceIdeal.Facts₀

/-- Operations %36 … %55: the two offset columns, the concatenation and the final reshape. -/
def refOut_part3 (v1 : FVec F S_ .f32) (v16 v21 : FVec F S16x5776x3x2 .f32) (v28 : FVec F S16x5776x3x81 .f32)
    (v33 v35 : FVec F S5776 .f32) : FVec F S16x17328x85 .f32 :=
  let v36 : FVec F S16x5776x3x1 .f32 := extractStridedSlice S16x5776x3x1 ![0, 0, 0, 0] v16 slices_S16x5776x3x2_S16x5776x3x1_0_0_0_0
  let v37 : FVec F S16x5776x3 .f32 := shapeCast S16x5776x3 v36 shapeCasts_S16x5776x3x1_S16x5776x3
  let v38 : FVec F S1x5776x1 .f32 := broadcastInDim S1x5776x1 ![1] bcast_S5776_S1x5776x1_1 v33
  let v39 : FVec F S16x5776x3 .f32 := broadcastInDim S16x5776x3 ![0, 1, 2] bcast_S1x5776x1_S16x5776x3_0_1_2 v38
  let v40 : FVec F S16x5776x3 .f32 := addf v37 v39
  let v41 : FVec F S16x5776x3 .f32 := broadcastInDim S16x5776x3 ![] bcast_S_S16x5776x3 v1
  let v42 : FVec F S16x5776x3 .f32 := mulf v40 v41
  let v43 : FVec F S16x5776x3x1 .f32 := extractStridedSlice S16x5776x3x1 ![0, 0, 0, 1] v16 slices_S16x5776x3x2_S16x5776x3x1_0_0_0_1
  let v44 : FVec F S16x5776x3 .f32 := shapeCast S16x5776x3 v43 shapeCasts_S16x5776x3x1_S16x5776x3
  let v45 : FVec F S1x5776x1 .f32 := broadcastInDim S1x5776x1 ![1] bcast_S5776_S1x5776x1_1 v35
  let v46 : FVec F S16x5776x3 .f32 := broadcastInDim S16x5776x3 ![0, 1, 2] bcast_S1x5776x1_S16x5776x3_0_1_2 v45
  let v47 : FVec F S16x5776x3 .f32 := addf v44 v46
  let v48 : FVec F S16x5776x3 .f32 := broadcastInDim S16x5776x3 ![] bcast_S_S16x5776x3 v1
  let v49 : FVec F S16x5776x3 .f32 := mulf v47 v48
  let v50 : FVec F S16x5776x3x2 .f32 := broadcastInDim S16x5776x3x2 ![] bcast_S_S16x5776x3x2 v1
  let v51 : FVec F S16x5776x3x2 .f32 := mulf v21 v50
  let v52 : FVec F S16x5776x3x1 .f32 := broadcastInDim S16x5776x3x1 ![0, 1, 2] bcast_S16x5776x3_S16x5776x3x1_0_1_2 v42
  let v53 : FVec F S16x5776x3x1 .f32 := broadcastInDim S16x5776x3x1 ![0, 1, 2] bcast_S16x5776x3_S16x5776x3x1_0_1_2 v49
  let v54 : FVec F S16x5776x3x85 .f32 :=
    concatenate S16x5776x3x85 3 [⟨S16x5776x3x1, v52⟩, ⟨S16x5776x3x1, v53⟩, ⟨S16x5776x3x2, v51⟩, ⟨S16x5776x3x81, v28⟩]
      concatenates_S16x5776x3x1_S16x5776x3x1_S16x5776x3x2_S16x5776x3x81_S16x5776x3x85_d3
  let v55 : FVec F S16x17328x85 .f32 := shapeCast S16x17328x85 v54 shapeCasts_S16x5776x3x85_S16x17328x85
  v55

/-- Operations %22 … %35: the logistic of the 81 trailing attributes, and the two grid-offset vectors. -/
def refOut_part2 (v1 : FVec F S_ .f32) (v5 : FVec F S16x5776x3x85 .f32) (v16 v21 : FVec F S16x5776x3x2 .f32) :
    FVec F S16x17328x85 .f32 :=
  let v22 : FVec F S16x5776x3x81 .f32 := extractStridedSlice S16x5776x3x81 ![0, 0, 0, 4] v5 slices_S16x5776x3x85_S16x5776x3x81_0_0_0_4
  let v23 : FVec F S16x5776x3x81 .f32 := Host.negf v22
  let v24 : FVec F S16x5776x3x81 .f32 := Host.exp v23
  let cst_4 : FVec F S_ .f32 := constant S_ .f32 0x3F800000#32
  let v25 : FVec F S16x5776x3x81 .f32 := broadcastInDim S16x5776x3x81 ![] bcast_S_S16x5776x3x81 cst_4
  let v26 : FVec F S16x5776x3x81 .f32 := addf v25 v24
  let cst_5 : FVec F S_ .f32 := constant S_ .f32 0x3F800000#32
  let v27 : FVec F S16x5776x3x81 .f32 := broadcastInDim S16x5776x3x81 ![] bcast_S_S16x5776x3x81 cst_5
  let v28 : FVec F S16x5776x3x81 .f32 := Host.divf v27 v26
  let v29 : IVec S76 32 := iotaInDim S76 32 0
  let v30 : IVec S76x76 32 := broadcastInDim S76x76 ![0] bcast_S76_S76x76_0 v29
  let v31 : IVec S76x76 32 := broadcastInDim S76x76 ![1] bcast_S76_S76x76_1 v29
  let v32 : IVec S5776 32 := shapeCast S5776 v31 shapeCasts_S76x76_S5776
  let v33 : FVec F S5776 .f32 := sitofp .f32 v32
  let v34 : IVec S5776 32 := shapeCast S5776 v30 shapeCasts_S76x76_S5776
  let v35 : FVec F S5776 .f32 := sitofp .f32 v34
  refOut_part3 v1 v16 v21 v28 v33 v35

/-- Operations %6 … %21: the logistic of the two leading attributes, and the scaled exponential of the next two. -/
def refOut_part1 (v1 : FVec F S_ .f32) (v3 : FVec F S3x2 .f32) (v5 : FVec F S16x5776x3x85 .f32) : FVec F S16x17328x85 .f32 :=
  let v6 : FVec F S16x5776x3x2 .f32 := extractStridedSlice S16x5776x3x2 ![0, 0, 0, 0] v5 slices_S16x5776x3x85_S16x5776x3x2_0_0_0_0
  let v7 : FVec F S16x5776x3x2 .f32 := Host.negf v6
  let v8 : FVec F S16x5776x3x2 .f32 := Host.exp v7
  let cst_0 : FVec F S_ .f32 := constant S_ .f32 0x3F800000#32
  let v9 : FVec F S16x5776x3x2 .f32 := broadcastInDim S16x5776x3x2 ![] bcast_S_S16x5776x3x2 cst_0
  let v10 : FVec F S16x5776x3x2 .f32 := addf v9 v8
  let cst_1 : FVec F S_ .f32 := constant S_ .f32 0x3F800000#32
  let v11 : FVec F S16x5776x3x2 .f32 := broadcastInDim S16x5776x3x2 ![] bcast_S_S16x5776x3x2 cst_1
  let v12 : FVec F S16x5776x3x2 .f32 := Host.divf v11 v10
  let cst_2 : FVec F S_ .f32 := constant S_ .f32 0x3F800000#32
  let v13 : FVec F S16x5776x3x2 .f32 := broadcastInDim S16x5776x3x2 ![] bcast_S_S16x5776x3x2 cst_2
  let v14 : FVec F S16x5776x3x2 .f32 := mulf v12 v13
  let cst_3 : FVec F S_ .f32 := constant S_ .f32 0x00000000#32
  let v15 : FVec F S16x5776x3x2 .f32 := broadcastInDim S16x5776x3x2 ![] bcast_S_S16x5776x3x2 cst_3
  let v16 : FVec F S16x5776x3x2 .f32 := subf v14 v15
  let v17 : FVec F S16x5776x3x2 .f32 := extractStridedSlice S16x5776x3x2 ![0, 0, 0, 2] v5 slices_S16x5776x3x85_S16x5776x3x2_0_0_0_2
  let v18 : FVec F S16x5776x3x2 .f32 := Host.exp v17
  let v19 : FVec F S1x1x3x2 .f32 := broadcastInDim S1x1x3x2 ![2, 3] bcast_S3x2_S1x1x3x2_2_3 v3
  let v20 : FVec F S16x5776x3x2 .f32 := broadcastInDim S16x5776x3x2 ![0, 1, 2, 3] bcast_S1x1x3x2_S16x5776x3x2_0_1_2_3 v19
  let v21 : FVec F S16x5776x3x2 .f32 := mulf v18 v20
  refOut_part2 v1 v5 v16 v21

/-- The value of %55 as a function of the two arguments; operations %cst … %5 (the stride, the anchors divided by it,
    the input map regrouped and transposed), then the parts above. -/
def refOut (x : FVec F S16x255x76x76 .f32) (a : IVec S_ 32) : FVec F S16x17328x85 .f32 :=
  let cst : FVec F S3x2 .f32 := fun i => FloatOps.ofBits .f32 (lit0 (S3x2.rowMajor i))
  let c : IVec S_ 32 := constantI S_ 32 76#32
  -- @floor_divide(%arg1, %c)
  let c0v0 : IVec S_ 32 := id c
  let c0v1 : IVec S_ 32 := Host.divsi a c0v0
  let c0v2 : IVec S_ 32 := signi a
  let c0v3 : IVec S_ 32 := signi c0v0
  let c0v4 : IVec S_ 1 := cmpi .ne c0v2 c0v3
  let c0v5 : IVec S_ 32 := Host.remsi a c0v0
  let c0c : IVec S_ 32 := constantI S_ 32 0#32
  let c0v6 : IVec S_ 1 := cmpi .ne c0v5 c0c
  let c0v7 : IVec S_ 1 := andi c0v4 c0v6
  let c0c_0 : IVec S_ 32 := constantI S_ 32 1#32
  let c0v8 : IVec S_ 32 := subi c0v1 c0c_0
  -- @_where(%7, %8, %1)
  let v0 : IVec S_ 32 := select c0v7 c0v8 c0v1
  let v1 : FVec F S_ .f32 := sitofp .f32 v0
  let v2 : FVec F S3x2 .f32 := broadcastInDim S3x2 ![] bcast_S_S3x2 v1
  let v3 : FVec F S3x2 .f32 := Host.divf cst v2
  let v4 : FVec F S16x3x85x5776 .f32 := shapeCast S16x3x85x5776 x shapeCasts_S16x255x76x76_S16x3x85x5776
  let v5 : FVec F S16x5776x3x85 .f32 := transpose S16x5776x3x85 [0, 3, 1, 2] v4 transposes_S16x3x85x5776_S16x5776x3x85_0_3_1_2
  refOut_part1 v1 v3 v5

end Cert.ReferenceIdeal.RefTerm

end
-- ==== Proof.RefRun.lean ====
/-
  The reference program's run, read back. @main is a straight line of host operations once its call of the
  floor quotient (and, inside it, of the select) is unfolded at the call site over the call's own buffers:
  seventy-five operations in order. Every weakly fair execution of that line terminates with each buffer at
  the fold of the operations' results over the launch contents; the result buffer then holds the composed
  term of the two arguments, and the arguments are unchanged.
-/
import proofs.«155525_g56642028700200_fold_wed_c4_437_22_alg».proof.Proof.Gen.ReferenceIdeal
import proofs.«155525_g56642028700200_fold_wed_c4_437_22_alg».proof.Proof.RefTerm
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- @main's 75 operations, in order: the two constants, the twelve of the floor quotient `input_dim // 76`
    (eleven of its body and the select of the function it calls) over that call's buffers, then the
    remaining sixty-one of @main. -/
abbrev ops : List (HloOp τ sig (Elt F)) :=
  [ StableHlo.nullary main_cst (fun i => FloatOps.ofBits .f32 (lit0 (S3x2.rowMajor i))),
    StableHlo.nullary main_c (constantI S_ 32 76#32),
    StableHlo.TRef.unary (.of main_c : StableHlo.TRef sig ⟨S_, .i32⟩) (.of main_call0_v0 : StableHlo.TRef sig ⟨S_, .i32⟩) id,
    StableHlo.TRef.binary (.of main_arg1 : StableHlo.TRef sig ⟨S_, .i32⟩) (.of main_call0_v0 : StableHlo.TRef sig ⟨S_, .i32⟩) (.of main_call0_v1 : StableHlo.TRef sig ⟨S_, .i32⟩) Host.divsi,
    StableHlo.TRef.unary (.of main_arg1 : StableHlo.TRef sig ⟨S_, .i32⟩) (.of main_call0_v2 : StableHlo.TRef sig ⟨S_, .i32⟩) signi,
    StableHlo.TRef.unary (.of main_call0_v0 : StableHlo.TRef sig ⟨S_, .i32⟩) (.of main_call0_v3 : StableHlo.TRef sig ⟨S_, .i32⟩) signi,
    StableHlo.TRef.binary (.of main_call0_v2 : StableHlo.TRef sig ⟨S_, .i32⟩) (.of main_call0_v3 : StableHlo.TRef sig ⟨S_, .i32⟩) (.of main_call0_v4 : StableHlo.TRef sig ⟨S_, .i1⟩) (cmpi .ne),
    StableHlo.TRef.binary (.of main_arg1 : StableHlo.TRef sig ⟨S_, .i32⟩) (.of main_call0_v0 : StableHlo.TRef sig ⟨S_, .i32⟩) (.of main_call0_v5 : StableHlo.TRef sig ⟨S_, .i32⟩) Host.remsi,
    StableHlo.TRef.nullary (.of main_call0_c : StableHlo.TRef sig ⟨S_, .i32⟩) (constantI S_ 32 0#32),
    StableHlo.TRef.binary (.of main_call0_v5 : StableHlo.TRef sig ⟨S_, .i32⟩) (.of main_call0_c : StableHlo.TRef sig ⟨S_, .i32⟩) (.of main_call0_v6 : StableHlo.TRef sig ⟨S_, .i1⟩) (cmpi .ne),
    StableHlo.TRef.binary (.of main_call0_v4 : StableHlo.TRef sig ⟨S_, .i1⟩) (.of main_call0_v6 : StableHlo.TRef sig ⟨S_, .i1⟩) (.of main_call0_v7 : StableHlo.TRef sig ⟨S_, .i1⟩) andi,
    StableHlo.TRef.nullary (.of main_call0_c_0 : StableHlo.TRef sig ⟨S_, .i32⟩) (constantI S_ 32 1#32),
    StableHlo.TRef.binary (.of main_call0_v1 : StableHlo.TRef sig ⟨S_, .i32⟩) (.of main_call0_c_0 : StableHlo.TRef sig ⟨S_, .i32⟩) (.of main_call0_v8 : StableHlo.TRef sig ⟨S_, .i32⟩) subi,
    StableHlo.TRef.ternary (.of main_call0_v7 : StableHlo.TRef sig ⟨S_, .i1⟩) (.of main_call0_v8 : StableHlo.TRef sig ⟨S_, .i32⟩) (.of main_call0_v1 : StableHlo.TRef sig ⟨S_, .i32⟩) (.of main_v0 : StableHlo.TRef sig ⟨S_, .i32⟩) select,
    StableHlo.unary main_v0 main_v1 (sitofp .f32 : (⟨S_, .i32⟩ : BufTy).Contents (Elt F) → (⟨S_, .f32⟩ : BufTy).Contents (Elt F)),
    StableHlo.unary main_v1 main_v2 (broadcastInDim S3x2 ![] bcast_S_S3x2 : (⟨S_, .f32⟩ : BufTy).Contents (Elt F) → (⟨S3x2, .f32⟩ : BufTy).Contents (Elt F)),
    StableHlo.binary main_cst main_v2 main_v3 (Host.divf : (⟨S3x2, .f32⟩ : BufTy).Contents (Elt F) → (⟨S3x2, .f32⟩ : BufTy).Contents (Elt F) → (⟨S3x2, .f32⟩ : BufTy).Contents (Elt F)),
    StableHlo.reshape main_arg0 main_v4 rfl shapeCasts_S16x255x76x76_S16x3x85x5776,
    StableHlo.unary main_v4 main_v5 ((transpose S16x5776x3x85 [0, 3, 1, 2] · transposes_S16x3x85x5776_S16x5776x3x85_0_3_1_2) : (⟨S16x3x85x5776, .f32⟩ : BufTy).Contents (Elt F) → (⟨S16x5776x3x85, .f32⟩ : BufTy).Contents (Elt F)),
    StableHlo.unary main_v5 main_v6 ((extractStridedSlice S16x5776x3x2 ![0, 0, 0, 0] · slices_S16x5776x3x85_S16x5776x3x2_0_0_0_0) : (⟨S16x5776x3x85, .f32⟩ : BufTy).Contents (Elt F) → (⟨S16x5776x3x2, .f32⟩ : BufTy).Contents (Elt F)),
    StableHlo.unary main_v6 main_v7 (Host.negf : (⟨S16x5776x3x2, .f32⟩ : BufTy).Contents (Elt F) → (⟨S16x5776x3x2, .f32⟩ : BufTy).Contents (Elt F)),
    StableHlo.unary main_v7 main_v8 (Host.exp : (⟨S16x5776x3x2, .f32⟩ : BufTy).Contents (Elt F) → (⟨S16x5776x3x2, .f32⟩ : BufTy).Contents (Elt F)),
    StableHlo.nullary main_cst_0 (constant S_ .f32 0x3F800000#32),
    StableHlo.unary main_cst_0 main_v9 (broadcastInDim S16x5776x3x2 ![] bcast_S_S16x5776x3x2 : (⟨S_, .f32⟩ : BufTy).Contents (Elt F) → (⟨S16x5776x3x2, .f32⟩ : BufTy).Contents (Elt F)),
    StableHlo.binary main_v9 main_v8 main_v10 (addf : (⟨S16x5776x3x2, .f32⟩ : BufTy).Contents (Elt F) → (⟨S16x5776x3x2, .f32⟩ : BufTy).Contents (Elt F) → (⟨S16x5776x3x2, .f32⟩ : BufTy).Contents (Elt F)),
    StableHlo.nullary main_cst_1 (constant S_ .f32 0x3F800000#32),
    StableHlo.unary main_cst_1 main_v11 (broadcastInDim S16x5776x3x2 ![] bcast_S_S16x5776x3x2 : (⟨S_, .f32⟩ : BufTy).Contents (Elt F) → (⟨S16x5776x3x2, .f32⟩ : BufTy).Contents (Elt F)),
    StableHlo.binary main_v11 main_v10 main_v12 (Host.divf : (⟨S16x5776x3x2, .f32⟩ : BufTy).Contents (Elt F) → (⟨S16x5776x3x2, .f32⟩ : BufTy).Contents (Elt F) → (⟨S16x5776x3x2, .f32⟩ : BufTy).Contents (Elt F)),
    StableHlo.nullary main_cst_2 (constant S_ .f32 0x3F800000#32),
    StableHlo.unary main_cst_2 main_v13 (broadcastInDim S16x5776x3x2 ![] bcast_S_S16x5776x3x2 : (⟨S_, .f32⟩ : BufTy).Contents (Elt F) → (⟨S16x5776x3x2, .f32⟩ : BufTy).Contents (Elt F)),
    StableHlo.binary main_v12 main_v13 main_v14 (mulf : (⟨S16x5776x3x2, .f32⟩ : BufTy).Contents (Elt F) → (⟨S16x5776x3x2, .f32⟩ : BufTy).Contents (Elt F) → (⟨S16x5776x3x2, .f32⟩ : BufTy).Contents (Elt F)),
    StableHlo.nullary main_cst_3 (constant S_ .f32 0x00000000#32),
    StableHlo.unary main_cst_3 main_v15 (broadcastInDim S16x5776x3x2 ![] bcast_S_S16x5776x3x2 : (⟨S_, .f32⟩ : BufTy).Contents (Elt F) → (⟨S16x5776x3x2, .f32⟩ : BufTy).Contents (Elt F)),
    StableHlo.binary main_v14 main_v15 main_v16 (subf : (⟨S16x5776x3x2, .f32⟩ : BufTy).Contents (Elt F) → (⟨S16x5776x3x2, .f32⟩ : BufTy).Contents (Elt F) → (⟨S16x5776x3x2, .f32⟩ : BufTy).Contents (Elt F)),
    StableHlo.unary main_v5 main_v17 ((extractStridedSlice S16x5776x3x2 ![0, 0, 0, 2] · slices_S16x5776x3x85_S16x5776x3x2_0_0_0_2) : (⟨S16x5776x3x85, .f32⟩ : BufTy).Contents (Elt F) → (⟨S16x5776x3x2, .f32⟩ : BufTy).Contents (Elt F)),
    StableHlo.unary main_v17 main_v18 (Host.exp : (⟨S16x5776x3x2, .f32⟩ : BufTy).Contents (Elt F) → (⟨S16x5776x3x2, .f32⟩ : BufTy).Contents (Elt F)),
    StableHlo.unary main_v3 main_v19 (broadcastInDim S1x1x3x2 ![2, 3] bcast_S3x2_S1x1x3x2_2_3 : (⟨S3x2, .f32⟩ : BufTy).Contents (Elt F) → (⟨S1x1x3x2, .f32⟩ : BufTy).Contents (Elt F)),
    StableHlo.unary main_v19 main_v20 (broadcastInDim S16x5776x3x2 ![0, 1, 2, 3] bcast_S1x1x3x2_S16x5776x3x2_0_1_2_3 : (⟨S1x1x3x2, .f32⟩ : BufTy).Contents (Elt F) → (⟨S16x5776x3x2, .f32⟩ : BufTy).Contents (Elt F)),
    StableHlo.binary main_v18 main_v20 main_v21 (mulf : (⟨S16x5776x3x2, .f32⟩ : BufTy).Contents (Elt F) → (⟨S16x5776x3x2, .f32⟩ : BufTy).Contents (Elt F) → (⟨S16x5776x3x2, .f32⟩ : BufTy).Contents (Elt F)),
    StableHlo.unary main_v5 main_v22 ((extractStridedSlice S16x5776x3x81 ![0, 0, 0, 4] · slices_S16x5776x3x85_S16x5776x3x81_0_0_0_4) : (⟨S16x5776x3x85, .f32⟩ : BufTy).Contents (Elt F) → (⟨S16x5776x3x81, .f32⟩ : BufTy).Contents (Elt F)),
    StableHlo.unary main_v22 main_v23 (Host.negf : (⟨S16x5776x3x81, .f32⟩ : BufTy).Contents (Elt F) → (⟨S16x5776x3x81, .f32⟩ : BufTy).Contents (Elt F)),
    StableHlo.unary main_v23 main_v24 (Host.exp : (⟨S16x5776x3x81, .f32⟩ : BufTy).Contents (Elt F) → (⟨S16x5776x3x81, .f32⟩ : BufTy).Contents (Elt F)),
    StableHlo.nullary main_cst_4 (constant S_ .f32 0x3F800000#32),
    StableHlo.unary main_cst_4 main_v25 (broadcastInDim S16x5776x3x81 ![] bcast_S_S16x5776x3x81 : (⟨S_, .f32⟩ : BufTy).Contents (Elt F) → (⟨S16x5776x3x81, .f32⟩ : BufTy).Contents (Elt F)),
    StableHlo.binary main_v25 main_v24 main_v26 (addf : (⟨S16x5776x3x81, .f32⟩ : BufTy).Contents (Elt F) → (⟨S16x5776x3x81, .f32⟩ : BufTy).Contents (Elt F) → (⟨S16x5776x3x81, .f32⟩ : BufTy).Contents (Elt F)),
    StableHlo.nullary main_cst_5 (constant S_ .f32 0x3F800000#32),
    StableHlo.unary main_cst_5 main_v27 (broadcastInDim S16x5776x3x81 ![] bcast_S_S16x5776x3x81 : (⟨S_, .f32⟩ : BufTy).Contents (Elt F) → (⟨S16x5776x3x81, .f32⟩ : BufTy).Contents (Elt F)),
    StableHlo.binary main_v27 main_v26 main_v28 (Host.divf : (⟨S16x5776x3x81, .f32⟩ : BufTy).Contents (Elt F) → (⟨S16x5776x3x81, .f32⟩ : BufTy).Contents (Elt F) → (⟨S16x5776x3x81, .f32⟩ : BufTy).Contents (Elt F)),
    StableHlo.nullary main_v29 (iotaInDim S76 32 0),
    StableHlo.unary main_v29 main_v30 (broadcastInDim S76x76 ![0] bcast_S76_S76x76_0 : (⟨S76, .i32⟩ : BufTy).Contents (Elt F) → (⟨S76x76, .i32⟩ : BufTy).Contents (Elt F)),
    StableHlo.unary main_v29 main_v31 (broadcastInDim S76x76 ![1] bcast_S76_S76x76_1 : (⟨S76, .i32⟩ : BufTy).Contents (Elt F) → (⟨S76x76, .i32⟩ : BufTy).Contents (Elt F)),
    StableHlo.reshape main_v31 main_v32 rfl shapeCasts_S76x76_S5776,
    StableHlo.unary main_v32 main_v33 (sitofp .f32 : (⟨S5776, .i32⟩ : BufTy).Contents (Elt F) → (⟨S5776, .f32⟩ : BufTy).Contents (Elt F)),
    StableHlo.reshape main_v30 main_v34 rfl shapeCasts_S76x76_S5776,
    StableHlo.unary main_v34 main_v35 (sitofp .f32 : (⟨S5776, .i32⟩ : BufTy).Contents (Elt F) → (⟨S5776, .f32⟩ : BufTy).Contents (Elt F)),
    StableHlo.unary main_v16 main_v36 ((extractStridedSlice S16x5776x3x1 ![0, 0, 0, 0] · slices_S16x5776x3x2_S16x5776x3x1_0_0_0_0) : (⟨S16x5776x3x2, .f32⟩ : BufTy).Contents (Elt F) → (⟨S16x5776x3x1, .f32⟩ : BufTy).Contents (Elt F)),
    StableHlo.reshape main_v36 main_v37 rfl shapeCasts_S16x5776x3x1_S16x5776x3,
    StableHlo.unary main_v33 main_v38 (broadcastInDim S1x5776x1 ![1] bcast_S5776_S1x5776x1_1 : (⟨S5776, .f32⟩ : BufTy).Contents (Elt F) → (⟨S1x5776x1, .f32⟩ : BufTy).Contents (Elt F)),
    StableHlo.unary main_v38 main_v39 (broadcastInDim S16x5776x3 ![0, 1, 2] bcast_S1x5776x1_S16x5776x3_0_1_2 : (⟨S1x5776x1, .f32⟩ : BufTy).Contents (Elt F) → (⟨S16x5776x3, .f32⟩ : BufTy).Contents (Elt F)),
    StableHlo.binary main_v37 main_v39 main_v40 (addf : (⟨S16x5776x3, .f32⟩ : BufTy).Contents (Elt F) → (⟨S16x5776x3, .f32⟩ : BufTy).Contents (Elt F) → (⟨S16x5776x3, .f32⟩ : BufTy).Contents (Elt F)),
    StableHlo.unary main_v1 main_v41 (broadcastInDim S16x5776x3 ![] bcast_S_S16x5776x3 : (⟨S_, .f32⟩ : BufTy).Contents (Elt F) → (⟨S16x5776x3, .f32⟩ : BufTy).Contents (Elt F)),
    StableHlo.binary main_v40 main_v41 main_v42 (mulf : (⟨S16x5776x3, .f32⟩ : BufTy).Contents (Elt F) → (⟨S16x5776x3, .f32⟩ : BufTy).Contents (Elt F) → (⟨S16x5776x3, .f32⟩ : BufTy).Contents (Elt F)),
    StableHlo.unary main_v16 main_v43 ((extractStridedSlice S16x5776x3x1 ![0, 0, 0, 1] · slices_S16x5776x3x2_S16x5776x3x1_0_0_0_1) : (⟨S16x5776x3x2, .f32⟩ : BufTy).Contents (Elt F) → (⟨S16x5776x3x1, .f32⟩ : BufTy).Contents (Elt F)),
    StableHlo.reshape main_v43 main_v44 rfl shapeCasts_S16x5776x3x1_S16x5776x3,
    StableHlo.unary main_v35 main_v45 (broadcastInDim S1x5776x1 ![1] bcast_S5776_S1x5776x1_1 : (⟨S5776, .f32⟩ : BufTy).Contents (Elt F) → (⟨S1x5776x1, .f32⟩ : BufTy).Contents (Elt F)),
    StableHlo.unary main_v45 main_v46 (broadcastInDim S16x5776x3 ![0, 1, 2] bcast_S1x5776x1_S16x5776x3_0_1_2 : (⟨S1x5776x1, .f32⟩ : BufTy).Contents (Elt F) → (⟨S16x5776x3, .f32⟩ : BufTy).Contents (Elt F)),
    StableHlo.binary main_v44 main_v46 main_v47 (addf : (⟨S16x5776x3, .f32⟩ : BufTy).Contents (Elt F) → (⟨S16x5776x3, .f32⟩ : BufTy).Contents (Elt F) → (⟨S16x5776x3, .f32⟩ : BufTy).Contents (Elt F)),
    StableHlo.unary main_v1 main_v48 (broadcastInDim S16x5776x3 ![] bcast_S_S16x5776x3 : (⟨S_, .f32⟩ : BufTy).Contents (Elt F) → (⟨S16x5776x3, .f32⟩ : BufTy).Contents (Elt F)),
    StableHlo.binary main_v47 main_v48 main_v49 (mulf : (⟨S16x5776x3, .f32⟩ : BufTy).Contents (Elt F) → (⟨S16x5776x3, .f32⟩ : BufTy).Contents (Elt F) → (⟨S16x5776x3, .f32⟩ : BufTy).Contents (Elt F)),
    StableHlo.unary main_v1 main_v50 (broadcastInDim S16x5776x3x2 ![] bcast_S_S16x5776x3x2 : (⟨S_, .f32⟩ : BufTy).Contents (Elt F) → (⟨S16x5776x3x2, .f32⟩ : BufTy).Contents (Elt F)),
    StableHlo.binary main_v21 main_v50 main_v51 (mulf : (⟨S16x5776x3x2, .f32⟩ : BufTy).Contents (Elt F) → (⟨S16x5776x3x2, .f32⟩ : BufTy).Contents (Elt F) → (⟨S16x5776x3x2, .f32⟩ : BufTy).Contents (Elt F)),
    StableHlo.unary main_v42 main_v52 (broadcastInDim S16x5776x3x1 ![0, 1, 2] bcast_S16x5776x3_S16x5776x3x1_0_1_2 : (⟨S16x5776x3, .f32⟩ : BufTy).Contents (Elt F) → (⟨S16x5776x3x1, .f32⟩ : BufTy).Contents (Elt F)),
    StableHlo.unary main_v49 main_v53 (broadcastInDim S16x5776x3x1 ![0, 1, 2] bcast_S16x5776x3_S16x5776x3x1_0_1_2 : (⟨S16x5776x3, .f32⟩ : BufTy).Contents (Elt F) → (⟨S16x5776x3x1, .f32⟩ : BufTy).Contents (Elt F)),
    StableHlo.nary ![main_v52, main_v53, main_v51, main_v28] main_v54 (fun u => concatenate S16x5776x3x85 3 [⟨S16x5776x3x1, u 0⟩, ⟨S16x5776x3x1, u 1⟩, ⟨S16x5776x3x2, u 2⟩, ⟨S16x5776x3x81, u 3⟩] concatenates_S16x5776x3x1_S16x5776x3x1_S16x5776x3x2_S16x5776x3x81_S16x5776x3x85_d3),
    StableHlo.reshape main_v54 main_v55 rfl shapeCasts_S16x5776x3x85_S16x17328x85 ]

-- seventy-five binds re-associated: the rewrite under the chain recurses once per statement
set_option maxRecDepth 4096 in
set_option maxHeartbeats 4000000 in
/-- @main is that straight line: its two windows and the two functions unfolded at their calls, both sides
    are one chain of `hlo` steps once sequencing is re-associated. -/
theorem main_eq (c : Dev nD) : main (F := F) c = seq ops := by
  simp only [main, main_part0, main_part1, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.binary_bufs_sub .., StableHlo.ternary_bufs_sub .., StableHlo.unary_bufs_sub .., StableHlo.unary_bufs_sub .., StableHlo.binary_bufs_sub .., StableHlo.reshape_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.reshape_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.binary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.nary_bufs_sub .., StableHlo.reshape_bufs_sub ..⟩

/-- At the compiled mesh, for any float values, from any memory with zero counters: every weakly fair
    execution of @main terminates, and every final state has each buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The first argument's buffer is written by no operation. -/
theorem arg0_eq (V : Valuation τ sig (Elt F)) :
    after ops V (main_arg0 : DevRef τ sig) = V (main_arg0 : DevRef τ sig) := by
  after_results_simp

/-- The second argument's buffer is written by no operation. -/
theorem arg1_eq (V : Valuation τ sig (Elt F)) :
    after ops V (main_arg1 : DevRef τ sig) = V (main_arg1 : DevRef τ sig) := by
  after_results_simp

-- one pass over seventy-five results, the intermediate ones read several times each
set_option maxHeartbeats 4000000 in
/-- The fold at the result buffer is the composed term: each operation's result at its own buffer is its
    function of its operands' contents, at any other buffer what was there; what is left is the term
    line by line. -/
theorem out_eq (V : Valuation τ sig (Elt F)) :
    after ops V (main_v55 : DevRef τ sig) = RefTerm.refOut (V (main_arg0 : DevRef τ sig)) (V (main_arg1 : DevRef τ sig)) := by
  after_results_simp
  rfl

/-- On every device, for any float values, from any memory with zero counters: every weakly fair execution of
    @main terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
          = RefTerm.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v55).trans (out_eq _), (h c main_arg0).trans (arg0_eq _),
      (h c main_arg1).trans (arg1_eq _)⟩) (run_main m ρ)

end Cert.ReferenceIdeal.RefRun

end
-- ==== Proof.RefValue1.lean ====
/-
  The layout operations of the reference, each read at ONE index over literal shapes: the final reshape, the
  concatenation along the attribute axis (one lemma per operand), the broadcasts, the slices, the transpose and
  the regrouping reshape of the input map, and the grid reshape. Every statement is over a variable vector and
  indices written by coordinates; every proof is the library's index lemma with the coordinates' arithmetic.
-/
import proofs.«155525_g56642028700200_fold_wed_c4_437_22_alg».proof.ReferenceIdeal
import Idealize.ShloMosaic.Lib.ValueIdx
import Idealize.ShloMosaic.Lib.ValueLayout
import Idealize.ShloMosaic.Lib.Pipeline.Value

namespace Cert.ReferenceIdeal.RefValue

open Cert.ReferenceIdeal Idealize.ShloMosaic Idealize.ShloMosaic.ValueIdx

variable {α : Type}

/-! ## The final reshape: row `r` of the result is anchor `r % 3` of cell `r / 3` -/

theorem cast_out_apply (v : S16x5776x3x85.Idx → α) (h : S16x5776x3x85.ShapeCasts S16x17328x85)
    (b : Fin 16) (r : Fin 17328) (t : Fin 85) (g : Fin 5776) (a : Fin 3) (hg : g.val = r.val / 3) (ha : a.val = r.val % 3) :
    shapeCast S16x17328x85 v h (ix3 b r t) = v (ix4 b g a t) :=
  shapeCast_apply v h _ _ (by
    rw [Shape.rowMajor_val_four, Shape.rowMajor_val_three]
    show ((b.val * 5776 + g.val) * 3 + a.val) * 85 + t.val = (b.val * 17328 + r.val) * 85 + t.val
    omega)

/-! ## The concatenation along the attribute axis, one operand at a time -/

section Concat
variable (x0 x1 : S16x5776x3x1.Idx → α) (x2 : S16x5776x3x2.Idx → α) (x3 : S16x5776x3x81.Idx → α)
  (h : Shape.Concatenates [S16x5776x3x1, S16x5776x3x1, S16x5776x3x2, S16x5776x3x81] S16x5776x3x85 3)
  (b : Fin 16) (g : Fin 5776) (a : Fin 3) (t : Fin 85)

theorem concat_col0 (ht : t.val = 0) :
    concatenate S16x5776x3x85 3 [⟨S16x5776x3x1, x0⟩, ⟨S16x5776x3x1, x1⟩, ⟨S16x5776x3x2, x2⟩, ⟨S16x5776x3x81, x3⟩] h (ix4 b g a t)
      = x0 (ix4 b g a (0 : Fin 1)) :=
  concatenate_apply_piece 3 [⟨S16x5776x3x1, x0⟩, ⟨S16x5776x3x1, x1⟩, ⟨S16x5776x3x2, x2⟩, ⟨S16x5776x3x81, x3⟩] h (ix4 b g a t) 0 (by show (0 : Nat) < 4; omega) S16x5776x3x1 x0 rfl rfl 0 rfl (ix4 b g a (0 : Fin 1))
    (fun c hc => match c with
      | ⟨0, _⟩ => rfl | ⟨1, _⟩ => rfl | ⟨2, _⟩ => rfl | ⟨3, _⟩ => absurd rfl hc)
    (by show 0 + 0 = t.val; omega)

theorem concat_col1 (ht : t.val = 1) :
    concatenate S16x5776x3x85 3 [⟨S16x5776x3x1, x0⟩, ⟨S16x5776x3x1, x1⟩, ⟨S16x5776x3x2, x2⟩, ⟨S16x5776x3x81, x3⟩] h (ix4 b g a t)
      = x1 (ix4 b g a (0 : Fin 1)) :=
  concatenate_apply_piece 3 [⟨S16x5776x3x1, x0⟩, ⟨S16x5776x3x1, x1⟩, ⟨S16x5776x3x2, x2⟩, ⟨S16x5776x3x81, x3⟩] h (ix4 b g a t) 1 (by show (1 : Nat) < 4; omega) S16x5776x3x1 x1 rfl rfl 1 rfl (ix4 b g a (0 : Fin 1))
    (fun c hc => match c with
      | ⟨0, _⟩ => rfl | ⟨1, _⟩ => rfl | ⟨2, _⟩ => rfl | ⟨3, _⟩ => absurd rfl hc)
    (by show 1 + 0 = t.val; omega)

theorem concat_col23 (k : Fin 2) (ht : t.val = 2 + k.val) :
    concatenate S16x5776x3x85 3 [⟨S16x5776x3x1, x0⟩, ⟨S16x5776x3x1, x1⟩, ⟨S16x5776x3x2, x2⟩, ⟨S16x5776x3x81, x3⟩] h (ix4 b g a t)
      = x2 (ix4 b g a k) :=
  concatenate_apply_piece 3 [⟨S16x5776x3x1, x0⟩, ⟨S16x5776x3x1, x1⟩, ⟨S16x5776x3x2, x2⟩, ⟨S16x5776x3x81, x3⟩] h (ix4 b g a t) 2 (by show (2 : Nat) < 4; omega) S16x5776x3x2 x2 rfl rfl 2 rfl (ix4 b g a k)
    (fun c hc => match c with
      | ⟨0, _⟩ => rfl | ⟨1, _⟩ => rfl | ⟨2, _⟩ => rfl | ⟨3, _⟩ => absurd rfl hc)
    (by show 2 + k.val = t.val; omega)

theorem concat_rest (k : Fin 81) (ht : t.val = 4 + k.val) :
    concatenate S16x5776x3x85 3 [⟨S16x5776x3x1, x0⟩, ⟨S16x5776x3x1, x1⟩, ⟨S16x5776x3x2, x2⟩, ⟨S16x5776x3x81, x3⟩] h (ix4 b g a t)
      = x3 (ix4 b g a k) :=
  concatenate_apply_piece 3 [⟨S16x5776x3x1, x0⟩, ⟨S16x5776x3x1, x1⟩, ⟨S16x5776x3x2, x2⟩, ⟨S16x5776x3x81, x3⟩] h (ix4 b g a t) 3 (by show (3 : Nat) < 4; omega) S16x5776x3x81 x3 rfl rfl 4 rfl (ix4 b g a k)
    (fun c hc => match c with
      | ⟨0, _⟩ => rfl | ⟨1, _⟩ => rfl | ⟨2, _⟩ => rfl | ⟨3, _⟩ => absurd rfl hc)
    (by show 4 + k.val = t.val; omega)

end Concat

/-! ## Broadcasts -/

/-- A scalar broadcast to any shape reads the scalar. -/
theorem bcast_scalar_apply {t : Shape} (h : S_.BroadcastsInDim t (![] : Fin 0 → Fin t.rank)) (x : S_.Idx → α) (j : t.Idx) :
    broadcastInDim t ![] h x j = x ix0 :=
  broadcastInDim_apply _ h x j ix0 (fun a => a.elim0)

/-- A trailing unit axis added. -/
theorem bcast_addUnit_apply (h : S16x5776x3.BroadcastsInDim S16x5776x3x1 (![0, 1, 2] : Fin 3 → Fin S16x5776x3x1.rank))
    (v : S16x5776x3.Idx → α) (b : Fin 16) (g : Fin 5776) (a : Fin 3) (u : Fin 1) :
    broadcastInDim S16x5776x3x1 ![0, 1, 2] h v (ix4 b g a u) = v (ix3 b g a) :=
  broadcastInDim_apply _ h v _ _ (fun c => match c with
    | ⟨0, _⟩ => rfl | ⟨1, _⟩ => rfl | ⟨2, _⟩ => rfl)

/-- A per-cell vector over images and anchors. -/
theorem bcast_cell_apply (h : S1x5776x1.BroadcastsInDim S16x5776x3 (![0, 1, 2] : Fin 3 → Fin S16x5776x3.rank))
    (v : S1x5776x1.Idx → α) (b : Fin 16) (g : Fin 5776) (a : Fin 3) :
    broadcastInDim S16x5776x3 ![0, 1, 2] h v (ix3 b g a) = v (ix3 (0 : Fin 1) g (0 : Fin 1)) :=
  broadcastInDim_apply _ h v _ _ (fun c => match c with
    | ⟨0, _⟩ => rfl | ⟨1, _⟩ => rfl | ⟨2, _⟩ => rfl)

theorem bcast_cell1_apply (h : S5776.BroadcastsInDim S1x5776x1 (![1] : Fin 1 → Fin S1x5776x1.rank))
    (v : S5776.Idx → α) (u : Fin 1) (g : Fin 5776) (w : Fin 1) :
    broadcastInDim S1x5776x1 ![1] h v (ix3 u g w) = v (ix1 g) :=
  broadcastInDim_apply _ h v _ _ (fun c => match c with
    | ⟨0, _⟩ => rfl)

/-- The anchor table over images and cells. -/
theorem bcast_anchor_apply (h : S1x1x3x2.BroadcastsInDim S16x5776x3x2 (![0, 1, 2, 3] : Fin 4 → Fin S16x5776x3x2.rank))
    (v : S1x1x3x2.Idx → α) (b : Fin 16) (g : Fin 5776) (a : Fin 3) (k : Fin 2) :
    broadcastInDim S16x5776x3x2 ![0, 1, 2, 3] h v (ix4 b g a k) = v (ix4 (0 : Fin 1) (0 : Fin 1) a k) :=
  broadcastInDim_apply _ h v _ _ (fun c => match c with
    | ⟨0, _⟩ => rfl | ⟨1, _⟩ => rfl | ⟨2, _⟩ => rfl | ⟨3, _⟩ => rfl)

theorem bcast_anchor1_apply (h : S3x2.BroadcastsInDim S1x1x3x2 (![2, 3] : Fin 2 → Fin S1x1x3x2.rank))
    (v : S3x2.Idx → α) (u w : Fin 1) (a : Fin 3) (k : Fin 2) :
    broadcastInDim S1x1x3x2 ![2, 3] h v (ix4 u w a k) = v (ix2 a k) :=
  broadcastInDim_apply _ h v _ _ (fun c => match c with
    | ⟨0, _⟩ => rfl | ⟨1, _⟩ => rfl)

/-- The grid: a row index repeated along a row, a column index repeated down a column. -/
theorem bcast_grid_row_apply (h : S76.BroadcastsInDim S76x76 (![0] : Fin 1 → Fin S76x76.rank))
    (v : S76.Idx → α) (i j : Fin 76) :
    broadcastInDim S76x76 ![0] h v (ix2 i j) = v (ix1 i) :=
  broadcastInDim_apply _ h v _ _ (fun c => match c with
    | ⟨0, _⟩ => rfl)

theorem bcast_grid_col_apply (h : S76.BroadcastsInDim S76x76 (![1] : Fin 1 → Fin S76x76.rank))
    (v : S76.Idx → α) (i j : Fin 76) :
    broadcastInDim S76x76 ![1] h v (ix2 i j) = v (ix1 j) :=
  broadcastInDim_apply _ h v _ _ (fun c => match c with
    | ⟨0, _⟩ => rfl)

/-! ## Slices along the attribute axis -/

theorem slice85_2_apply (o : Nat) (h : S16x5776x3x85.Slices ![0, 0, 0, o] S16x5776x3x2) (v : S16x5776x3x85.Idx → α)
    (b : Fin 16) (g : Fin 5776) (a : Fin 3) (k : Fin 2) (t : Fin 85) (ht : t.val = o + k.val) :
    extractStridedSlice S16x5776x3x2 ![0, 0, 0, o] v h (ix4 b g a k) = v (ix4 b g a t) :=
  extractStridedSlice_apply _ v h _ _ (fun c => match c with
    | ⟨0, _⟩ => by show b.val = 0 + b.val; omega
    | ⟨1, _⟩ => by show g.val = 0 + g.val; omega
    | ⟨2, _⟩ => by show a.val = 0 + a.val; omega
    | ⟨3, _⟩ => by show t.val = o + k.val; omega)

theorem slice85_81_apply (h : S16x5776x3x85.Slices ![0, 0, 0, 4] S16x5776x3x81) (v : S16x5776x3x85.Idx → α)
    (b : Fin 16) (g : Fin 5776) (a : Fin 3) (k : Fin 81) (t : Fin 85) (ht : t.val = 4 + k.val) :
    extractStridedSlice S16x5776x3x81 ![0, 0, 0, 4] v h (ix4 b g a k) = v (ix4 b g a t) :=
  extractStridedSlice_apply _ v h _ _ (fun c => match c with
    | ⟨0, _⟩ => by show b.val = 0 + b.val; omega
    | ⟨1, _⟩ => by show g.val = 0 + g.val; omega
    | ⟨2, _⟩ => by show a.val = 0 + a.val; omega
    | ⟨3, _⟩ => by show t.val = 4 + k.val; omega)

theorem slice2_1_apply (o : Nat) (h : S16x5776x3x2.Slices ![0, 0, 0, o] S16x5776x3x1) (v : S16x5776x3x2.Idx → α)
    (b : Fin 16) (g : Fin 5776) (a : Fin 3) (u : Fin 1) (k : Fin 2) (hk : k.val = o) :
    extractStridedSlice S16x5776x3x1 ![0, 0, 0, o] v h (ix4 b g a u) = v (ix4 b g a k) :=
  extractStridedSlice_apply _ v h _ _ (fun c => match c with
    | ⟨0, _⟩ => by show b.val = 0 + b.val; omega
    | ⟨1, _⟩ => by show g.val = 0 + g.val; omega
    | ⟨2, _⟩ => by show a.val = 0 + a.val; omega
    | ⟨3, _⟩ => by have := u.isLt; show k.val = o + u.val; omega)

/-! ## The reshapes and the transpose -/

/-- The trailing unit axis dropped. -/
theorem cast_dropUnit_apply (h : S16x5776x3x1.ShapeCasts S16x5776x3) (v : S16x5776x3x1.Idx → α)
    (b : Fin 16) (g : Fin 5776) (a : Fin 3) :
    shapeCast S16x5776x3 v h (ix3 b g a) = v (ix4 b g a (0 : Fin 1)) :=
  shapeCast_apply v h _ _ (by
    rw [Shape.rowMajor_val_four, Shape.rowMajor_val_three]
    show ((b.val * 5776 + g.val) * 3 + a.val) * 1 + 0 = (b.val * 5776 + g.val) * 3 + a.val
    omega)

/-- The grid flattened: cell `g` is row `g / 76`, column `g % 76`. -/
theorem cast_grid_apply (h : S76x76.ShapeCasts S5776) (v : S76x76.Idx → α) (g : Fin 5776) (i j : Fin 76)
    (hi : i.val = g.val / 76) (hj : j.val = g.val % 76) :
    shapeCast S5776 v h (ix1 g) = v (ix2 i j) :=
  shapeCast_apply v h _ _ (by
    rw [Shape.rowMajor_val_two, Shape.rowMajor_val_one]
    show i.val * 76 + j.val = g.val
    omega)

/-- The transpose `[0, 3, 1, 2]`: cells to the second axis. -/
theorem transpose_apply4 (h : S16x3x85x5776.Transposes [0, 3, 1, 2] S16x5776x3x85) (v : S16x3x85x5776.Idx → α)
    (b : Fin 16) (g : Fin 5776) (a : Fin 3) (t : Fin 85) :
    transpose S16x5776x3x85 [0, 3, 1, 2] v h (ix4 b g a t) = v (ix4 b a t g) :=
  transpose_apply _ v h _ _ (fun c => match c with
    | ⟨0, _⟩ => rfl | ⟨1, _⟩ => rfl | ⟨2, _⟩ => rfl | ⟨3, _⟩ => rfl)

/-- The input map regrouped: channel `a · 85 + t`, cell `g` at grid row `g / 76` and column `g % 76`. -/
theorem cast_in_apply (h : S16x255x76x76.ShapeCasts S16x3x85x5776) (x : S16x255x76x76.Idx → α)
    (b : Fin 16) (a : Fin 3) (t : Fin 85) (g : Fin 5776) (c : Fin 255) (i j : Fin 76)
    (hc : c.val = a.val * 85 + t.val) (hi : i.val = g.val / 76) (hj : j.val = g.val % 76) :
    shapeCast S16x3x85x5776 x h (ix4 b a t g) = x (ix4 b c i j) :=
  shapeCast_apply x h _ _ (by
    rw [Shape.rowMajor_val_four, Shape.rowMajor_val_four]
    show ((b.val * 255 + c.val) * 76 + i.val) * 76 + j.val = ((b.val * 3 + a.val) * 85 + t.val) * 5776 + g.val
    omega)

end Cert.ReferenceIdeal.RefValue
-- ==== Proof.RefValue2.lean ====
/-
  The last part of the reference (operations %36 … %55) read at one index of the result, at the ideal instance,
  as a function of the values it takes: column 0 and column 1 are a leading-attribute entry plus a grid offset, times
  the stride; columns 2 and 3 are a scaled-exponential entry times the stride; the other columns are the
  trailing-attribute entry itself.
-/
import proofs.«155525_g56642028700200_fold_wed_c4_437_22_alg».proof.Proof.RefTerm
import proofs.«155525_g56642028700200_fold_wed_c4_437_22_alg».proof.Proof.RefValue1
import Idealize.ShloMosaic.PureOps.Ideal

namespace Cert.ReferenceIdeal.RefValue

open Cert.ReferenceIdeal Idealize.ShloMosaic Idealize.ShloMosaic.ValueIdx

/-! ## The host's pointwise operations at an index, at the ideal instance (definitional) -/

section Pointwise
variable {s : Shape} {φ : FTy}

theorem hostDivf_apply (a b : FVec Ideal s φ) (i : s.Idx) : Host.divf a b i = Ideal.div (a i) (b i) := rfl
theorem hostExp_apply (a : FVec Ideal s φ) (i : s.Idx) : Host.exp a i = Ideal.exp (a i) := rfl
theorem hostNegf_apply (a : FVec Ideal s φ) (i : s.Idx) : Host.negf a i = -(a i) := rfl
theorem sitofp32_apply {w : Nat} (x : IVec s w) (i : s.Idx) :
    (sitofp .f32 x : FVec Ideal s .f32) i = ((((x i).toInt : ℤ) : ℝ) : EReal) := rfl

end Pointwise

/-- The cell and the anchor of a row of the result. -/
abbrev cellOf (r : Fin 17328) : Fin 5776 := ⟨r.val / 3, by omega⟩
abbrev ancOf (r : Fin 17328) : Fin 3 := ⟨r.val % 3, by omega⟩

section Part3
variable [Cert.ReferenceIdeal.Facts]
variable (v1 : FVec Ideal S_ .f32) (v16 v21 : FVec Ideal S16x5776x3x2 .f32) (v28 : FVec Ideal S16x5776x3x81 .f32)
  (v33 v35 : FVec Ideal S5776 .f32) (b : Fin 16) (r : Fin 17328) (t : Fin 85)

theorem part3_col0 (ht : t.val = 0) :
    RefTerm.refOut_part3 v1 v16 v21 v28 v33 v35 (ix3 b r t)
      = (v16 (ix4 b (cellOf r) (ancOf r) (0 : Fin 2)) + v33 (ix1 (cellOf r))) * v1 ix0 := by
  simp only [RefTerm.refOut_part3]
  rw [cast_out_apply _ _ b r t (cellOf r) (ancOf r) rfl rfl, concat_col0 _ _ _ _ _ b (cellOf r) (ancOf r) t ht,
    bcast_addUnit_apply, mulf_apply, addf_apply, cast_dropUnit_apply,
    slice2_1_apply 0 _ _ b (cellOf r) (ancOf r) 0 (0 : Fin 2) rfl, bcast_cell_apply, bcast_cell1_apply, bcast_scalar_apply]

theorem part3_col1 (ht : t.val = 1) :
    RefTerm.refOut_part3 v1 v16 v21 v28 v33 v35 (ix3 b r t)
      = (v16 (ix4 b (cellOf r) (ancOf r) (1 : Fin 2)) + v35 (ix1 (cellOf r))) * v1 ix0 := by
  simp only [RefTerm.refOut_part3]
  rw [cast_out_apply _ _ b r t (cellOf r) (ancOf r) rfl rfl, concat_col1 _ _ _ _ _ b (cellOf r) (ancOf r) t ht,
    bcast_addUnit_apply, mulf_apply, addf_apply, cast_dropUnit_apply,
    slice2_1_apply 1 _ _ b (cellOf r) (ancOf r) 0 (1 : Fin 2) rfl, bcast_cell_apply, bcast_cell1_apply, bcast_scalar_apply]

theorem part3_col23 (k : Fin 2) (ht : t.val = 2 + k.val) :
    RefTerm.refOut_part3 v1 v16 v21 v28 v33 v35 (ix3 b r t)
      = v21 (ix4 b (cellOf r) (ancOf r) k) * v1 ix0 := by
  simp only [RefTerm.refOut_part3]
  rw [cast_out_apply _ _ b r t (cellOf r) (ancOf r) rfl rfl, concat_col23 _ _ _ _ _ b (cellOf r) (ancOf r) t k ht,
    mulf_apply, bcast_scalar_apply]

theorem part3_rest (k : Fin 81) (ht : t.val = 4 + k.val) :
    RefTerm.refOut_part3 v1 v16 v21 v28 v33 v35 (ix3 b r t) = v28 (ix4 b (cellOf r) (ancOf r) k) := by
  simp only [RefTerm.refOut_part3]
  rw [cast_out_apply _ _ b r t (cellOf r) (ancOf r) rfl rfl, concat_rest _ _ _ _ _ b (cellOf r) (ancOf r) t k ht]

end Part3

end Cert.ReferenceIdeal.RefValue
-- ==== Proof.RefValue3.lean ====
/-
  The middle parts of the reference (operations %6 … %35) read at one index of the result, at the ideal instance:
  the grid offsets are the iota's word converted, the logistic is the quotient `1 / (1 + e^(-v))` of the regrouped
  input's entry, the scaled exponential is `e^v` times the anchor table's entry.
-/
import proofs.«155525_g56642028700200_fold_wed_c4_437_22_alg».proof.Proof.RefValue2
import proofs.«155525_g56642028700200_fold_wed_c4_437_22_alg».proof.Proof.Spec

namespace Cert.ReferenceIdeal.RefValue

open Cert.ReferenceIdeal Idealize.ShloMosaic Idealize.ShloMosaic.ValueIdx

section Part2
variable [Cert.ReferenceIdeal.Facts]
variable (v1 : FVec Ideal S_ .f32) (v5 : FVec Ideal S16x5776x3x85 .f32) (v16 v21 : FVec Ideal S16x5776x3x2 .f32)
  (b : Fin 16) (r : Fin 17328) (t : Fin 85)

theorem part2_col0 (ht : t.val = 0) :
    RefTerm.refOut_part2 v1 v5 v16 v21 (ix3 b r t)
      = (v16 (ix4 b (cellOf r) (ancOf r) (0 : Fin 2)) + Cert.Yolo.off ((cellOf r).val % 76)) * v1 ix0 := by
  simp only [RefTerm.refOut_part2]
  rw [part3_col0 _ _ _ _ _ _ b r t ht, sitofp32_apply,
    cast_grid_apply _ _ (cellOf r) ⟨(cellOf r).val / 76, by omega⟩ ⟨(cellOf r).val % 76, by omega⟩ rfl rfl,
    bcast_grid_col_apply]
  rfl

theorem part2_col1 (ht : t.val = 1) :
    RefTerm.refOut_part2 v1 v5 v16 v21 (ix3 b r t)
      = (v16 (ix4 b (cellOf r) (ancOf r) (1 : Fin 2)) + Cert.Yolo.off ((cellOf r).val / 76)) * v1 ix0 := by
  simp only [RefTerm.refOut_part2]
  rw [part3_col1 _ _ _ _ _ _ b r t ht, sitofp32_apply,
    cast_grid_apply _ _ (cellOf r) ⟨(cellOf r).val / 76, by omega⟩ ⟨(cellOf r).val % 76, by omega⟩ rfl rfl,
    bcast_grid_row_apply]
  rfl

theorem part2_col23 (k : Fin 2) (ht : t.val = 2 + k.val) :
    RefTerm.refOut_part2 v1 v5 v16 v21 (ix3 b r t) = v21 (ix4 b (cellOf r) (ancOf r) k) * v1 ix0 := by
  simp only [RefTerm.refOut_part2]
  rw [part3_col23 _ _ _ _ _ _ b r t k ht]

theorem part2_rest (k : Fin 81) (ht : t.val = 4 + k.val) :
    RefTerm.refOut_part2 v1 v5 v16 v21 (ix3 b r t) = Cert.Yolo.sigm (v5 (ix4 b (cellOf r) (ancOf r) t)) := by
  simp only [RefTerm.refOut_part2]
  rw [part3_rest _ _ _ _ _ _ b r t k ht, hostDivf_apply, addf_apply, hostExp_apply, hostNegf_apply,
    slice85_81_apply _ _ b (cellOf r) (ancOf r) k t ht, bcast_scalar_apply, constant_apply]
  rfl

end Part2

section Part1
variable [Cert.ReferenceIdeal.Facts]
variable (v1 : FVec Ideal S_ .f32) (v3 : FVec Ideal S3x2 .f32) (v5 : FVec Ideal S16x5776x3x85 .f32)
  (b : Fin 16) (r : Fin 17328) (t : Fin 85)

theorem part1_col0 (ht : t.val = 0) :
    RefTerm.refOut_part1 v1 v3 v5 (ix3 b r t)
      = (Cert.Yolo.sigm (v5 (ix4 b (cellOf r) (ancOf r) t)) * Cert.Yolo.one - Cert.Yolo.zero
          + Cert.Yolo.off ((cellOf r).val % 76)) * v1 ix0 := by
  simp only [RefTerm.refOut_part1]
  rw [part2_col0 _ _ _ _ b r t ht, subf_apply, mulf_apply, hostDivf_apply, addf_apply, hostExp_apply, hostNegf_apply,
    slice85_2_apply 0 _ _ b (cellOf r) (ancOf r) (0 : Fin 2) t (by show t.val = 0 + 0; omega)]
  rw [bcast_scalar_apply, bcast_scalar_apply, constant_apply, constant_apply]
  rfl

theorem part1_col1 (ht : t.val = 1) :
    RefTerm.refOut_part1 v1 v3 v5 (ix3 b r t)
      = (Cert.Yolo.sigm (v5 (ix4 b (cellOf r) (ancOf r) t)) * Cert.Yolo.one - Cert.Yolo.zero
          + Cert.Yolo.off ((cellOf r).val / 76)) * v1 ix0 := by
  simp only [RefTerm.refOut_part1]
  rw [part2_col1 _ _ _ _ b r t ht, subf_apply, mulf_apply, hostDivf_apply, addf_apply, hostExp_apply, hostNegf_apply,
    slice85_2_apply 0 _ _ b (cellOf r) (ancOf r) (1 : Fin 2) t (by show t.val = 0 + 1; omega)]
  rw [bcast_scalar_apply, bcast_scalar_apply, constant_apply, constant_apply]
  rfl

theorem part1_col23 (k : Fin 2) (ht : t.val = 2 + k.val) :
    RefTerm.refOut_part1 v1 v3 v5 (ix3 b r t)
      = Ideal.exp (v5 (ix4 b (cellOf r) (ancOf r) t)) * v3 (ix2 (ancOf r) k) * v1 ix0 := by
  simp only [RefTerm.refOut_part1]
  rw [part2_col23 _ _ _ _ b r t k ht, mulf_apply, hostExp_apply,
    slice85_2_apply 2 _ _ b (cellOf r) (ancOf r) k t ht, bcast_anchor_apply, bcast_anchor1_apply]

theorem part1_rest (k : Fin 81) (ht : t.val = 4 + k.val) :
    RefTerm.refOut_part1 v1 v3 v5 (ix3 b r t) = Cert.Yolo.sigm (v5 (ix4 b (cellOf r) (ancOf r) t)) := by
  simp only [RefTerm.refOut_part1]
  rw [part2_rest _ _ _ _ b r t k ht]

end Part1

end Cert.ReferenceIdeal.RefValue
-- ==== Proof.RefValue.lean ====
/-
  The reference's value, index by index: entry `(b, r, t)` of its result, at the ideal instance, is the decoded box's
  attribute written with the anchor divided by the stride and multiplied back (`Cert.Yolo.viaQuotient`). The first
  part of the reference (operations %cst … %5) supplies the three values the later parts take: the stride as a
  float, the anchors divided by it, and the input map regrouped and transposed; the four kinds of column are then
  the four lemmas of the later parts.
-/
import proofs.«155525_g56642028700200_fold_wed_c4_437_22_alg».proof.Proof.RefValue3

namespace Cert.ReferenceIdeal.RefValue

open Cert.ReferenceIdeal Idealize.ShloMosaic Idealize.ShloMosaic.ValueIdx

/-- The literal table at row-major position `2a + k` is the anchors' word at row `a`, column `k`. -/
theorem lit0_anchor (a : Fin 3) (k : Fin 2) : lit0 (S3x2.rowMajor (ix2 a k)) = Cert.Yolo.anchorBits a k := by
  fin_cases a <;> fin_cases k <;> rfl

section Part0
variable [Cert.ReferenceIdeal.Facts]
variable (x : FVec Ideal S16x255x76x76 .f32) (a : IVec S_ 32) (b : Fin 16) (r : Fin 17328) (t : Fin 85)

/-- The input map regrouped and transposed, at image `b`, the row's cell, the row's anchor and attribute `t`, is the
    input entry result entry `(b, r, t)` is computed from. -/
theorem xr_apply (h₁ : S16x255x76x76.ShapeCasts S16x3x85x5776) (h₂ : S16x3x85x5776.Transposes [0, 3, 1, 2] S16x5776x3x85) :
    transpose S16x5776x3x85 [0, 3, 1, 2] (shapeCast S16x3x85x5776 x h₁) h₂ (ix4 b (cellOf r) (ancOf r) t)
      = Cert.Yolo.inp x b r t := by
  rw [transpose_apply4,
    cast_in_apply _ _ b (ancOf r) t (cellOf r) (Cert.Yolo.chan r t) (Cert.Yolo.gyOf r) (Cert.Yolo.gxOf r) rfl rfl rfl]
  rfl

theorem refOut_col0 (ht : t.val = 0) :
    RefTerm.refOut (F := Ideal) x a (ix3 b r t)
      = (Cert.Yolo.sigm (Cert.Yolo.inp x b r t) * Cert.Yolo.one - Cert.Yolo.zero + Cert.Yolo.off (Cert.Yolo.gxOf r).val)
          * Cert.Yolo.stride a := by
  simp only [RefTerm.refOut]
  rw [part1_col0 _ _ _ b r t ht, xr_apply]
  rfl

theorem refOut_col1 (ht : t.val = 1) :
    RefTerm.refOut (F := Ideal) x a (ix3 b r t)
      = (Cert.Yolo.sigm (Cert.Yolo.inp x b r t) * Cert.Yolo.one - Cert.Yolo.zero + Cert.Yolo.off (Cert.Yolo.gyOf r).val)
          * Cert.Yolo.stride a := by
  simp only [RefTerm.refOut]
  rw [part1_col1 _ _ _ b r t ht, xr_apply]
  rfl

theorem refOut_col23 (h2 : 2 ≤ t.val) (h4 : t.val < 4) :
    RefTerm.refOut (F := Ideal) x a (ix3 b r t)
      = Ideal.exp (Cert.Yolo.inp x b r t)
          * Ideal.div (Ideal.ofBits .f32 (Cert.Yolo.anchorBits (Cert.Yolo.anchorOf r) ⟨t.val - 2, by omega⟩)) (Cert.Yolo.stride a)
          * Cert.Yolo.stride a := by
  simp only [RefTerm.refOut]
  rw [part1_col23 _ _ _ b r t ⟨t.val - 2, by omega⟩ (by show t.val = 2 + (t.val - 2); omega), xr_apply, hostDivf_apply,
    bcast_scalar_apply]
  simp only [lit0_anchor]
  rfl

theorem refOut_rest (h4 : 4 ≤ t.val) :
    RefTerm.refOut (F := Ideal) x a (ix3 b r t) = Cert.Yolo.sigm (Cert.Yolo.inp x b r t) := by
  simp only [RefTerm.refOut]
  rw [part1_rest _ _ _ b r t ⟨t.val - 4, by omega⟩ (by show t.val = 4 + (t.val - 4); omega), xr_apply]

/-- **The reference at an index.** -/
theorem refOut_apply :
    RefTerm.refOut (F := Ideal) x a (ix3 b r t) = Cert.Yolo.viaQuotient x (Cert.Yolo.stride a) b r t := by
  unfold Cert.Yolo.viaQuotient
  by_cases h0 : t.val = 0
  · rw [if_pos h0]; exact refOut_col0 x a b r t h0
  by_cases h1 : t.val = 1
  · rw [if_neg h0, if_pos h1]; exact refOut_col1 x a b r t h1
  by_cases h4 : t.val < 4
  · rw [if_neg h0, if_neg h1, dif_pos h4]; exact refOut_col23 x a b r t (by omega) h4
  · rw [if_neg h0, if_neg h1, dif_neg h4]; exact refOut_rest x a b r t (by omega)

end Part0

end Cert.ReferenceIdeal.RefValue
-- ==== Proof.Algebra.lean ====
/-
  The two spellings of the decoded boxes agree.

  With the five tables of the kernel's program (`lit0` marks an anchor's two offset channels, `lit1` holds the anchors'
  widths and heights at the size channels and one elsewhere, `lit2` is zero exactly at the size channels, `lit3` /
  `lit4` mark the column- / row-offset channel), a finite input entry `v`, and a stride `s` that is a non-zero
  integer, the one quotient `rm / (adder + e^(-v)) + cx · gx + cy · gy` is, channel kind by channel kind,
    s / (1 + e^(-v)) + s · gx          = (1 / (1 + e^(-v)) · 1 - 0 + gx) · s,
    A / (0 + e^(-v))                    = e^v · (A / s) · s        (this is where s ≠ 0 is used),
    1 / (1 + e^(-v))                    = 1 / (1 + e^(-v)),
  all of it arithmetic of real numbers: nothing here is infinite, so every step is taken in ℝ.
-/
import proofs.«155525_g56642028700200_fold_wed_c4_437_22_alg».proof.Proof.Spec
import proofs.«155525_g56642028700200_fold_wed_c4_437_22_alg».proof.KernelIdeal

noncomputable section

namespace Cert.Yolo

open Idealize.ShloMosaic Idealize.ShloMosaic.ValueIdx

/-! ## The float words of this certificate -/

theorem one_eq : one = ((1 : ℝ) : EReal) := by
  simp [one, Ideal.ofBits, Ideal.ieee, -EReal.coe_mul]; norm_num

theorem zero_eq : zero = ((0 : ℝ) : EReal) := by
  simp [zero, Ideal.ofBits, Ideal.ieee]

/-- Each anchor word denotes a real number (10, 13, 16, 30, 33, 23). -/
theorem anchor_real (a : Fin 3) (k : Fin 2) : ∃ w : ℝ, Ideal.ofBits .f32 (anchorBits a k) = (w : EReal) := by
  fin_cases a <;> fin_cases k
  · exact ⟨10, by simp [anchorBits, Ideal.ofBits, Ideal.ieee, -EReal.coe_mul]; norm_num⟩
  · exact ⟨13, by simp [anchorBits, Ideal.ofBits, Ideal.ieee, -EReal.coe_mul]; norm_num⟩
  · exact ⟨16, by simp [anchorBits, Ideal.ofBits, Ideal.ieee, -EReal.coe_mul]; norm_num⟩
  · exact ⟨30, by simp [anchorBits, Ideal.ofBits, Ideal.ieee, -EReal.coe_mul]; norm_num⟩
  · exact ⟨33, by simp [anchorBits, Ideal.ofBits, Ideal.ieee, -EReal.coe_mul]; norm_num⟩
  · exact ⟨23, by simp [anchorBits, Ideal.ofBits, Ideal.ieee, -EReal.coe_mul]; norm_num⟩

/-! ## Quotients and exponentials of real numbers -/

theorem div_real (a b : ℝ) (hb : b ≠ 0) : Ideal.div (a : EReal) (b : EReal) = ((a / b : ℝ) : EReal) := by
  rw [Ideal.div_coe hb, ← EReal.coe_mul, mul_one_div]

theorem exp_real (v : ℝ) : Ideal.exp (v : EReal) = ((Real.exp v : ℝ) : EReal) := rfl

theorem sigm_real (v : ℝ) : sigm (v : EReal) = (((1 + Real.exp (-v))⁻¹ : ℝ) : EReal) := by
  have h : (1 + Real.exp (-v)) ≠ 0 := by positivity
  unfold sigm
  rw [one_eq, ← EReal.coe_neg, exp_real, ← EReal.coe_add, div_real _ _ h, one_div]

/-- The kernel's quotient on real numbers. -/
theorem quot_real (p q v : ℝ) (h : q + Real.exp (-v) ≠ 0) :
    Ideal.div (p : EReal) ((q : EReal) + Ideal.exp (zero - (v : EReal))) = ((p / (q + Real.exp (-v)) : ℝ) : EReal) := by
  rw [zero_eq, ← EReal.coe_sub, exp_real, ← EReal.coe_add, zero_sub, div_real _ _ h]

/-! ## The tables, channel kind by channel kind -/

/-- A channel `c = a · 85 + t` is attribute `c % 85` of anchor `c / 85`; the tables as functions of the two. -/
theorem lit0_eq : ∀ c : Fin 255, Cert.KernelIdeal.lit0 c = if c.val % 85 < 2 then 0x3F800000#32 else 0x00000000#32 := by
  decide +kernel
theorem lit2_eq : ∀ c : Fin 255, Cert.KernelIdeal.lit2 c = if c.val % 85 = 2 ∨ c.val % 85 = 3 then 0x00000000#32 else 0x3F800000#32 := by
  decide +kernel
theorem lit3_eq : ∀ c : Fin 255, Cert.KernelIdeal.lit3 c = if c.val % 85 = 0 then 0x3F800000#32 else 0x00000000#32 := by
  decide +kernel
theorem lit4_eq : ∀ c : Fin 255, Cert.KernelIdeal.lit4 c = if c.val % 85 = 1 then 0x3F800000#32 else 0x00000000#32 := by
  decide +kernel
theorem lit1_eq : ∀ c : Fin 255, Cert.KernelIdeal.lit1 c =
    if c.val % 85 = 2 then anchorBits ⟨c.val / 85, by omega⟩ 0
    else if c.val % 85 = 3 then anchorBits ⟨c.val / 85, by omega⟩ 1 else 0x3F800000#32 := by
  decide +kernel

theorem chan_mod (r : Fin 17328) (t : Fin 85) : (chan r t).val % 85 = t.val := by
  simp only [chan]; omega
theorem chan_div (r : Fin 17328) (t : Fin 85) : (chan r t).val / 85 = r.val % 3 := by
  simp only [chan]; omega

/-! ## The two spellings agree -/

/-- The kernel's quotient on real numbers, the zero word already read. -/
theorem quot_real' (p q v : ℝ) (h : q + Real.exp (-v) ≠ 0) :
    Ideal.div (p : EReal) ((q : EReal) + Ideal.exp (((0 - v : ℝ)) : EReal)) = ((p / (q + Real.exp (-v)) : ℝ) : EReal) := by
  rw [exp_real, ← EReal.coe_add, zero_sub, div_real _ _ h]

theorem anchor_idx (r : Fin 17328) (t : Fin 85) (h : (chan r t).val / 85 < 3) :
    (⟨(chan r t).val / 85, h⟩ : Fin 3) = anchorOf r := Fin.ext (chan_div r t)

/-- On a finite input map and a stride that is a non-zero integer, the table form and the quotient form of the
    decoded boxes are the same extended real at every entry. -/
theorem viaTables_eq_viaQuotient (x : SX.Idx → EReal) (hx : ∀ j, ∃ y : ℝ, x j = (y : EReal)) (n : ℤ) (hn : n ≠ 0)
    (b : Fin 16) (r : Fin 17328) (t : Fin 85) :
    viaTables Cert.KernelIdeal.lit0 Cert.KernelIdeal.lit1 Cert.KernelIdeal.lit2 Cert.KernelIdeal.lit3 Cert.KernelIdeal.lit4
        x (((n : ℝ)) : EReal) b r t
      = viaQuotient x (((n : ℝ)) : EReal) b r t := by
  obtain ⟨v, hv⟩ := hx (ix4 b (chan r t) (gyOf r) (gxOf r))
  have hs : ((n : ℝ)) ≠ 0 := by exact_mod_cast hn
  have he : (1 + Real.exp (-v)) ≠ 0 := by positivity
  have he0 : (0 + Real.exp (-v)) ≠ 0 := by positivity
  have hexp : Real.exp (-v) * Real.exp v = 1 := by rw [← Real.exp_add]; simp
  unfold viaTables viaQuotient inp
  rw [hv, lit0_eq, lit1_eq, lit2_eq, lit3_eq, lit4_eq, chan_mod]
  by_cases h0 : t.val = 0
  · simp only [h0, if_true, Nat.zero_lt_two, show ¬((0 : ℕ) = 2 ∨ (0 : ℕ) = 3) by omega, show ¬(0 : ℕ) = 2 by omega,
      show ¬(0 : ℕ) = 3 by omega, show ¬(0 : ℕ) = 1 by omega, if_false]
    change Ideal.div (one * (one - one) + _ * one) (one + Ideal.exp (zero - _)) + one * _ * off _ + zero * _ * off _ = _
    rw [sigm_real, one_eq, zero_eq, off, off]
    simp only [← EReal.coe_sub, ← EReal.coe_mul, ← EReal.coe_add]
    rw [quot_real' _ _ _ he]
    simp only [← EReal.coe_sub, ← EReal.coe_mul, ← EReal.coe_add]
    congr 1
    field_simp
    ring
  by_cases h1 : t.val = 1
  · simp only [h1, if_true, show (1 : ℕ) < 2 by omega, show ¬((1 : ℕ) = 2 ∨ (1 : ℕ) = 3) by omega, show ¬(1 : ℕ) = 2 by omega,
      show ¬(1 : ℕ) = 3 by omega, show ¬(1 : ℕ) = 0 by omega, if_false]
    change Ideal.div (one * (one - one) + _ * one) (one + Ideal.exp (zero - _)) + zero * _ * off _ + one * _ * off _ = _
    rw [sigm_real, one_eq, zero_eq, off, off]
    simp only [← EReal.coe_sub, ← EReal.coe_mul, ← EReal.coe_add]
    rw [quot_real' _ _ _ he]
    simp only [← EReal.coe_sub, ← EReal.coe_mul, ← EReal.coe_add]
    congr 1
    field_simp
    ring
  by_cases h2 : t.val = 2
  · obtain ⟨w, hw⟩ := anchor_real (anchorOf r) 0
    simp only [h2, if_true, show ¬(2 : ℕ) < 2 by omega, show ((2 : ℕ) = 2 ∨ (2 : ℕ) = 3) by omega,
      show ¬(2 : ℕ) = 1 by omega, show ¬(2 : ℕ) = 0 by omega, if_false, show (2 : ℕ) < 4 by omega, dite_true, anchor_idx]
    rw [show (⟨2 - 2, by omega⟩ : Fin 2) = 0 from rfl, hw]
    change Ideal.div (_ * (one - zero) + _ * zero) (zero + Ideal.exp (zero - _)) + zero * _ * off _ + zero * _ * off _ = _
    rw [one_eq, zero_eq, off, off, exp_real, div_real _ _ hs]
    simp only [← EReal.coe_sub, ← EReal.coe_mul, ← EReal.coe_add]
    rw [quot_real' _ _ _ he0]
    simp only [← EReal.coe_sub, ← EReal.coe_mul, ← EReal.coe_add]
    congr 1
    have hz : Real.exp (-v) ≠ 0 := (Real.exp_pos _).ne'
    field_simp
    linear_combination (-w) * hexp
  by_cases h3 : t.val = 3
  · obtain ⟨w, hw⟩ := anchor_real (anchorOf r) 1
    simp only [h3, if_true, show ¬(3 : ℕ) < 2 by omega, show ((3 : ℕ) = 2 ∨ (3 : ℕ) = 3) by omega,
      show ¬(3 : ℕ) = 1 by omega, show ¬(3 : ℕ) = 0 by omega, show ¬(3 : ℕ) = 2 by omega, if_false, show (3 : ℕ) < 4 by omega,
      dite_true, anchor_idx]
    rw [show (⟨3 - 2, by omega⟩ : Fin 2) = 1 from rfl, hw]
    change Ideal.div (_ * (one - zero) + _ * zero) (zero + Ideal.exp (zero - _)) + zero * _ * off _ + zero * _ * off _ = _
    rw [one_eq, zero_eq, off, off, exp_real, div_real _ _ hs]
    simp only [← EReal.coe_sub, ← EReal.coe_mul, ← EReal.coe_add]
    rw [quot_real' _ _ _ he0]
    simp only [← EReal.coe_sub, ← EReal.coe_mul, ← EReal.coe_add]
    congr 1
    have hz : Real.exp (-v) ≠ 0 := (Real.exp_pos _).ne'
    field_simp
    linear_combination (-w) * hexp
  · have h4 : ¬ t.val < 4 := by omega
    simp only [h0, h1, h2, h3, h4, show ¬ t.val < 2 by omega, false_or, if_false, dite_false]
    change Ideal.div (one * (one - zero) + _ * zero) (one + Ideal.exp (zero - _)) + zero * _ * off _ + zero * _ * off _ = _
    rw [sigm_real, one_eq, zero_eq, off, off]
    simp only [← EReal.coe_sub, ← EReal.coe_mul, ← EReal.coe_add]
    rw [quot_real' _ _ _ he]
    simp only [← EReal.coe_sub, ← EReal.coe_mul, ← EReal.coe_add]
    congr 1
    field_simp
    ring

end Cert.Yolo

end
-- ==== Proof.PreDecode.lean ====
/-
  What the precondition says of the inputs: every entry of the input map is a real number (its absolute value is
  below +∞ on the extended reals, so it is neither infinity), and the integer stride `input_dim // 76` — the divisor
  of the reference's anchors — is not zero.
-/
import proofs.«155525_g56642028700200_fold_wed_c4_437_22_alg».proof.Pre_finite_inputs
import proofs.«155525_g56642028700200_fold_wed_c4_437_22_alg».proof.Proof.Spec
import Idealize.ShloMosaic.Lib.ReduceAll
import Idealize.ShloMosaic.Lib.Affine

noncomputable section

namespace Cert.Yolo

open Idealize.ShloMosaic Idealize.ShloMosaic.ValueIdx

instance : Subsingleton Cert.Pre_finite_inputs.S_.Idx := ⟨fun a b => funext fun d => d.elim0⟩

/-- An extended real whose absolute value is below the float word of +∞ is a real number. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ y : ℝ, x = (y : EReal) := by
  induction x using EReal.rec with
  | bot => exfalso; revert h; simp [FloatOps.cmpf, FloatOps.hostAbsf, FloatOps.absf, FloatOps.ofBits, Ideal.ofBits, Ideal.ieee, Ideal.cmp]
  | coe y => exact ⟨y, rfl⟩
  | top => exfalso; revert h; simp [FloatOps.cmpf, FloatOps.hostAbsf, FloatOps.absf, FloatOps.ofBits, Ideal.ofBits, Ideal.ieee, Ideal.cmp]

theorem pre_decode [Cert.Pre_finite_inputs.Facts] (x : FVec Ideal Cert.Pre_finite_inputs.S16x255x76x76 .f32)
    (a : IVec Cert.Pre_finite_inputs.S_ 32)
    (h : Cert.Pre_finite_inputs.fn (F := Ideal) x a = fun _ => 1#1) :
    (∀ j, ∃ y : ℝ, x j = (y : EReal)) ∧ strideI a ix0 ≠ 0#32 := by
  have h0 := congrFun h ix0
  dsimp only [Cert.Pre_finite_inputs.fn] at h0
  obtain ⟨hall, hne⟩ := IntOp.andi_eq_one.1 h0
  refine ⟨fun j => ?_, ?_⟩
  · have hj := Host.reduce_andi_all _ _ _ _ _ hall j
    exact real_of_abs_lt (x j) hj
  · exact IntOp.cmpi_ne.1 hne

end Cert.Yolo

end
-- ==== Proof.lean ====
/-
  The decoded boxes of one detection scale: the kernel's program and its reference compute one function.

  Both programs turn a map `x[b, c, gy, gx]` (16 images, 255 = 3 · 85 channels, a 76 × 76 grid) into rows
  `out[b, (gy · 76 + gx) · 3 + a, t]` from `v = x[b, a · 85 + t, gy, gx]` and the stride `s = input_dim // 76`:
  `(σ v + gx) · s`, `(σ v + gy) · s`, `e^v · anchor` twice, then `σ v` for the remaining 81 attributes (Spec.lean).
  The kernel walks the grid four rows at a time with ONE quotient `rm / (adder + e^(-v)) + cx · gx + cy · gy` whose
  coefficients a host prologue lays out per channel; the reference divides the anchors by the stride, multiplies the stride
  back, and concatenates the four kinds of attribute. The frames: FrameK.lean, FrameKI.lean (the kernel's program at the
  word level and over the extended reals), RefRun.lean (the reference's straight line). The values: KPayload / KHost /
  KFinal (every entry of the kernel's result is `Yolo.viaTables`), RefTerm / RefValue (every entry of the reference's is
  `Yolo.viaQuotient`). The two agree where the input is finite and the stride is not zero (Algebra.lean), which is what the
  precondition says (PreDecode.lean): at stride zero the reference divides the anchors by zero.
-/
import proofs.«155525_g56642028700200_fold_wed_c4_437_22_alg».proof.Defs
import proofs.«155525_g56642028700200_fold_wed_c4_437_22_alg».proof.Proof.Gen.Kernel
import proofs.«155525_g56642028700200_fold_wed_c4_437_22_alg».proof.Proof.Gen.KernelIdeal
import proofs.«155525_g56642028700200_fold_wed_c4_437_22_alg».proof.Proof.Gen.ReferenceIdeal
import proofs.«155525_g56642028700200_fold_wed_c4_437_22_alg».proof.Proof.Gen.Pre_finite_inputs
import proofs.«155525_g56642028700200_fold_wed_c4_437_22_alg».proof.Proof.FrameK
import proofs.«155525_g56642028700200_fold_wed_c4_437_22_alg».proof.Proof.KFinal
import proofs.«155525_g56642028700200_fold_wed_c4_437_22_alg».proof.Proof.RefRun
import proofs.«155525_g56642028700200_fold_wed_c4_437_22_alg».proof.Proof.RefValue
import proofs.«155525_g56642028700200_fold_wed_c4_437_22_alg».proof.Proof.Algebra
import proofs.«155525_g56642028700200_fold_wed_c4_437_22_alg».proof.Proof.PreDecode
import Idealize.ShloMosaic.Adequacy
import Idealize.ShloMosaic.Init

noncomputable section

namespace Cert.Proof

open Idealize.ShloMosaic Idealize.ShloMosaic.ValueIdx Idealize.SL.Sem

/-- The three programs run to the end and leave their arguments as they found them. -/
theorem frame_k : Cert.frame_Kernel := fun m ρ _ => Cert.Kernel.HandFrame.frame m ρ
theorem frame_ki : Cert.frame_KernelIdeal := fun m ρ _ => Cert.KernelIdeal.HandFrame.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- A non-zero 32-bit word, read signed, is a non-zero integer: the stride is one. -/
theorem stride_int (a : IVec Cert.Yolo.SScalar 32) (h : Cert.Yolo.strideI a ix0 ≠ 0#32) :
    ∃ n : ℤ, n ≠ 0 ∧ Cert.Yolo.stride a = (((n : ℝ)) : EReal) :=
  ⟨(Cert.Yolo.strideI a ix0).toInt, fun h0 => h (BitVec.toInt_inj.1 (by rw [h0]; rfl)), rfl⟩

/-- From memories that agree on the arguments the kernel's result is the table form of the decoded boxes, the
    reference's the quotient form, and under the precondition the two forms are equal entry by entry. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  obtain ⟨hx, hs⟩ := Cert.Yolo.pre_decode _ _ (hpre c)
  obtain ⟨n, hn, hsn⟩ := stride_int _ hs
  funext j
  obtain ⟨b, r, t, rfl⟩ : ∃ (b : Fin 16) (r : Fin 17328) (t : Fin 85), j = ix3 b r t := ⟨j 0, j 1, j 2, eq_ix3 j⟩
  rw [Cert.ReferenceIdeal.RefValue.refOut_apply, hsn]
  exact (Cert.Yolo.viaTables_eq_viaQuotient _ hx n hn b r t).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
